-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x16 : Shape := ⟨2, ![600000, 16]⟩
abbrev S128x16 : Shape := ⟨2, ![128, 16]⟩
abbrev S128 : Shape := ⟨1, ![128]⟩
abbrev S128x128 : Shape := ⟨2, ![128, 128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x16 .f32) (main_arg2 : FVec F S128x16 .f32) (main_arg3 : FVec F S128 .f32) (main_arg4 : FVec F S128x128 .f32) (main_arg5 : FVec F S128 .f32) (main_arg6 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x16 .f32 := Host.absf main_arg1
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S600000x16 : Shape := ⟨2, ![600000, 16]⟩
abbrev S128x16 : Shape := ⟨2, ![128, 16]⟩
abbrev S128 : Shape := ⟨1, ![128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000x16 : Shape := ⟨2, ![50000, 16]⟩
abbrev S600000x1 : Shape := ⟨2, ![600000, 1]⟩
abbrev S50000 : Shape := ⟨1, ![50000]⟩
abbrev S50000x1 : Shape := ⟨2, ![50000, 1]⟩
abbrev S16x128 : Shape := ⟨2, ![16, 128]⟩
abbrev S1x128 : Shape := ⟨2, ![1, 128]⟩
abbrev S2000x128 : Shape := ⟨2, ![2000, 128]⟩
abbrev S2000x16 : Shape := ⟨2, ![2000, 16]⟩
abbrev S2000x1 : Shape := ⟨2, ![2000, 1]⟩
abbrev S600000x128 : Shape := ⟨2, ![600000, 128]⟩
abbrev S5000x128 : Shape := ⟨2, ![5000, 128]⟩
abbrev S5000x1 : Shape := ⟨2, ![5000, 1]⟩

abbrev nBuf : Space → Nat
  | .hbm => 46
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S600000x16, .f32⟩
  | .hbm, ⟨2, _⟩ => ⟨S128x16, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S50000x16, .f32⟩
  | .hbm, ⟨13, _⟩ => ⟨S600000x1, .i32⟩
  | .hbm, ⟨14, _⟩ => ⟨S50000x16, .f32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x1, .f32⟩
  | .hbm, ⟨27, _⟩ => ⟨S16x128, .f32⟩
  | .hbm, ⟨28, _⟩ => ⟨S128x128, .f32⟩
  | .hbm, ⟨29, _⟩ => ⟨S1x128, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x16, .f32⟩
  | .local _ .vmem, ⟨3, _⟩ => ⟨S2000x16, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S16x128, .f32⟩
  | .local _ .vmem, ⟨9, _⟩ => ⟨S1x128, .f32⟩
  | .local _ .vmem, ⟨10, _⟩ => ⟨S128x128, .f32⟩
  | .local _ .vmem, ⟨11, _⟩ => ⟨S2000x128, .f32⟩
  | .local _ .vmem, ⟨12, _⟩ => ⟨S2000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x16 : S_.BroadcastsInDim S50000x16 (![] : Fin 0 → Fin S50000x16.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000 : S_.BroadcastsInDim S50000 (![] : Fin 0 → Fin S50000.rank)
  shapeCasts_S50000_S50000x1 : S50000.ShapeCasts S50000x1
  transposes_S128x16_S16x128_1_0 : S128x16.Transposes [1, 0] S16x128
  transposes_S128x128_S128x128_1_0 : S128x128.Transposes [1, 0] S128x128
  shapeCasts_S128_S1x128 : S128.ShapeCasts S1x128
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  broadcasts_S1x128_S5000x128 : S1x128.Broadcasts S5000x128
  scatter_S50000x16_S600000x1_S600000x16_1_0_0_1_wf : ScatterDims.WF S50000x16 S600000x1 S600000x16 [1] [0] [0] 1
  scatter_S50000_S600000x1_S600000_n_0_0_1_wf : ScatterDims.WF S50000 S600000x1 S600000 [] [0] [0] 1
  dot_S2000x16_S16x128_S2000x128_1_0_0_1_n_n_wf : DotDims.WF S2000x16 S16x128 S2000x128 [1] [0] [0] [1] [] []
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S50000x16.size a
  hwx0_1 : ∀ i : grid0.Coords, EltTy.bits .f32 = 32 ∨ (Rect.block (s := S50000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000x16_S600000x1_S600000x16_1_0_0_1 : ScatterDims S50000x16 S600000x1 S600000x16 where
  updateWindowDims := [1]
  insertedWindowDims := [0]
  scatterDimsToOperandDims := [0]
  indexVectorDim := 1
  wf := scatter_S50000x16_S600000x1_S600000x16_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x16 : Shape := ⟨2, ![600000, 16]⟩
abbrev S128x16 : Shape := ⟨2, ![128, 16]⟩
abbrev S128 : Shape := ⟨1, ![128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S16x128 : Shape := ⟨2, ![16, 128]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩
abbrev S50000 : Shape := ⟨1, ![50000]⟩
abbrev S50000x1 : Shape := ⟨2, ![50000, 1]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x16, .f32⟩
  | .hbm, ⟨2, _⟩ => ⟨S128x16, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S16x128, .f32⟩
  | .hbm, ⟨12, _⟩ => ⟨S600000x128, .f32⟩
  | .hbm, ⟨13, _⟩ => ⟨S1x128, .f32⟩
  | .hbm, ⟨14, _⟩ => ⟨S600000x128, .f32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S50000x128, .f32⟩
  | .hbm, ⟨21, _⟩ => ⟨S128x128, .f32⟩
  | .hbm, ⟨22, _⟩ => ⟨S50000x128, .f32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S50000, .f32⟩
  | .hbm, ⟨27, _⟩ => ⟨S600000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000, .f32⟩
  | .hbm, ⟨58, _⟩ => ⟨S600000, .f32⟩
  | .hbm, ⟨59, _⟩ => ⟨S600000x1, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_cst : Ref sig .tc := ⟨.hbm, 83, rfl⟩
abbrev main_call1_v0 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x16_S16x128_1_0 : S128x16.Transposes [1, 0] S16x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  bcast_S600000_S600000x1_0 : S600000.BroadcastsInDim S600000x1 (![0] : Fin 1 → Fin S600000x1.rank)
  transposes_S128x128_S128x128_1_0 : S128x128.Transposes [1, 0] S128x128
  bcast_S_S600000 : S_.BroadcastsInDim S600000 (![] : Fin 0 → Fin S600000.rank)
  bcast_S_S50000 : S_.BroadcastsInDim S50000 (![] : Fin 0 → Fin S50000.rank)
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  dot_S600000x16_S16x128_S600000x128_1_0_0_1_n_n_wf : DotDims.WF S600000x16 S16x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]

variable [Facts₀]

def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf

class Facts : Prop extends Facts₀ where

variable [Facts]
-- ==== Proof.KernelRun.lean ====
/-
  The tiled program's run with its result named.

  The program is four segments: host operations, the first kernel's region, host operations, the second kernel's region.
  Every weakly fair execution terminates, nothing faulting, with every unscoped buffer at the last segment boundary's
  contents `W4`: in particular the result buffer, and the seven arguments, which no segment writes.
-/
import proofs.«148007_j53257594471012_2_alg».proof.Proof.Gen.KernelIdeal.Frame
import Idealize.ShloMosaic.PureOps.Ideal

set_option maxRecDepth 16384

noncomputable section

open scoped BigOperators

namespace Cert.KernelIdeal.RunValue

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding plain
-- definitions in a metavariable's type
set_option backward.isDefEq.respectTransparency.types false in
/-- The frame run, with the result buffer read at the last boundary's contents. -/
theorem run_named : θ_run (defs (F := Ideal)) (onTc (τ := τ) (main (F := Ideal))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibRowIndex.lean ====
/-
  Row scatters and row gathers read at an index.

  jax's `segment_sum(data, ids, num_segments = N)` prints as a `stablehlo.scatter` with an `add` body whose scatter
  indices are the `E` words `ids` as an `[E, 1]` array: update row `e` is added to operand row `ids[e]`, read signed,
  when that is a row number, and dropped otherwise (`land`). jax's `x[ids]` prints as a `stablehlo.gather` over the
  same `[E, 1]` array of start indices: result row `e` is operand row `ids[e]`, read signed and clamped into
  `[0, N - 1]` (`pick`). This file states both, for a matrix of rows (`[N, C]`, updates / result `[E, C]`) and for a
  plain vector (`[N]`, updates / result `[E]`), at one element, and the one fact that joins them: an index that lands
  on row `n` picks row `n`.
-/
import Idealize.ShloMosaic.PureOps.Ideal
import Idealize.ShloMosaic.PureOps.Contract
import Idealize.ShloMosaic.Lib.ValueIdx

noncomputable section

open scoped BigOperators

namespace Cert.Lib.RowIndex

open Idealize.ShloMosaic Idealize.ShloMosaic.ValueIdx

/-! ## Where an index word lands, and which row it picks -/

/-- The row an index word names among `N` rows when it is read signed and NOT clamped: `some` row when the signed
    value is in `[0, N)`, `none` otherwise (a scatter drops such an update). -/
def land (N : Nat) {w : Nat} (c : BitVec w) : Option (Fin N) :=
  if h : 0 ≤ c.toInt ∧ c.toInt < (N : Int) then some ⟨c.toInt.toNat, by omega⟩ else none

/-- The row an index word names among `N` rows when it is read signed and clamped into `[0, N - 1]` (a gather
    clamps its start index). -/
def pick (N : Nat) (hN : 0 < N) {w : Nat} (c : BitVec w) : Fin N :=
  ⟨min c.toInt.toNat (N - 1), by omega⟩

/-- An index word that lands on row `n` picks row `n`. -/
theorem pick_of_land {N : Nat} (hN : 0 < N) {w : Nat} (c : BitVec w) (n : Fin N) (h : land N c = some n) :
    pick N hN c = n := by
  unfold land at h
  split at h
  · rename_i hc
    obtain rfl : (⟨c.toInt.toNat, _⟩ : Fin N) = n := Option.some.inj h
    refine Fin.ext ?_
    show min c.toInt.toNat (N - 1) = c.toInt.toNat
    omega
  · exact absurd h (by simp)

/-- A word that lands somewhere is not negative. -/
theorem toInt_nonneg_of_land {N : Nat} {w : Nat} (c : BitVec w) (n : Fin N) (h : land N c = some n) :
    0 ≤ c.toInt := by
  unfold land at h
  split at h
  · rename_i hc
    exact hc.1
  · exact absurd h (by simp)

/-! ## The dimension numbers -/

/-- `segment_sum` of rows: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `segment_sum` of scalars: operand `[N]`, scatter indices `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[ids]` of a matrix of rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[ids]` of a vector: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-! ## The scatters at an element (extended reals) -/

/-- Axis 0 of a row scatter's window start: the index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e h) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of a row scatter's window start: zero (the index names rows only). -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (1 : Fin 2) = 0 := by
  unfold ScatterDims.start
  rw [dif_neg (show ¬ (1 : Fin 2) ∈ ([0] : List (Fin 2)) by decide)]

/-- Axis 0 of a row scatter's window coordinate: zero (a window is one row). -/
theorem rowScatter_window_zero {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (0 : Fin 2) = 0 := by
  unfold ScatterDims.window
  have hm : ¬ (0 : Fin 2) ∈ (rowScatter N E C wf).sKept :=
    (show ¬ (0 : Fin 2) ∈ (List.finRange 2).filter (fun a => a ∉ ([0] : List (Fin 2))) by decide)
  rw [dif_neg hm]

/-- Axis 1 of a row scatter's window coordinate: the update's column. -/
theorem rowScatter_window_one {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (1 : Fin 2) = h.val := by
  unfold ScatterDims.window
  have hm : (1 : Fin 2) ∈ (rowScatter N E C wf).sKept :=
    (show (1 : Fin 2) ∈ (List.finRange 2).filter (fun a => a ∉ ([0] : List (Fin 2))) by decide)
  rw [dif_pos hm]
  rfl

/-- Where update element `(e, h)` of a row scatter goes: row `land` of its index word, column `h`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).resultIdx? (ix2 e h) idx
      = (land N (idx (ix2 e (0 : Fin 1)))).map (fun n => ix2 n h) := by
  have h00 := rowScatter_start_zero wf idx e h
  have h01 := rowScatter_start_one wf idx e h
  have h10 := rowScatter_window_zero wf e h
  have h11 := rowScatter_window_one wf e h
  have hC : (h.val : Int) < (C : Int) := by exact_mod_cast h.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 2, 0 ≤ (rowScatter N E C wf).start (ix2 e h) idx a + ((rowScatter N E C wf).window (ix2 e h) a : Int)
        ∧ (rowScatter N E C wf).start (ix2 e h) idx a + ((rowScatter N E C wf).window (ix2 e h) a : Int)
          < ((⟨2, ![N, C]⟩ : Shape).size a : Int) := by
      intro a
      match a with
      | ⟨0, _⟩ =>
        show 0 ≤ (rowScatter N E C wf).start (ix2 e h) idx (0 : Fin 2) + ((rowScatter N E C wf).window (ix2 e h) (0 : Fin 2) : Int)
          ∧ (rowScatter N E C wf).start (ix2 e h) idx (0 : Fin 2) + ((rowScatter N E C wf).window (ix2 e h) (0 : Fin 2) : Int) < (N : Int)
        rw [h00, h10]; simpa using hc
      | ⟨1, _⟩ =>
        show 0 ≤ (rowScatter N E C wf).start (ix2 e h) idx (1 : Fin 2) + ((rowScatter N E C wf).window (ix2 e h) (1 : Fin 2) : Int)
          ∧ (rowScatter N E C wf).start (ix2 e h) idx (1 : Fin 2) + ((rowScatter N E C wf).window (ix2 e h) (1 : Fin 2) : Int) < (C : Int)
        rw [h01, h11]; omega
    rw [dif_pos hall]
    congr 1
    funext a
    refine Fin.ext ?_
    match a with
    | ⟨0, _⟩ =>
      show ((rowScatter N E C wf).start (ix2 e h) idx (0 : Fin 2) + ((rowScatter N E C wf).window (ix2 e h) (0 : Fin 2) : Int)).toNat
        = (idx (ix2 e (0 : Fin 1))).toInt.toNat
      rw [h00, h10]; simp
    | ⟨1, _⟩ =>
      show ((rowScatter N E C wf).start (ix2 e h) idx (1 : Fin 2) + ((rowScatter N E C wf).window (ix2 e h) (1 : Fin 2) : Int)).toNat
        = h.val
      rw [h01, h11]; simp
  · rw [dif_neg hc, Option.map_none]
    unfold ScatterDims.resultIdx?
    rw [dif_neg]
    intro hall
    have := hall (0 : Fin 2)
    rw [h00, h10] at this
    exact hc (by simpa using this)

/-- Update element `j` of a row scatter goes to `(n, h)` exactly when its index word lands on `n` and its
    column is `h`. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (h : Fin C) :
    (rowScatter N E C wf).resultIdx? j idx = some (ix2 n h)
      ↔ land N (idx (ix2 (j 0) (0 : Fin 1))) = some n ∧ j 1 = h := by
  obtain ⟨e, h', rfl⟩ : ∃ (e : Fin E) (h' : Fin C), j = ix2 e h' := ⟨j 0, j 1, eq_ix2 j⟩
  rw [rowScatter_resultIdx wf idx e h']
  show Option.map (fun m => ix2 m h') (land N (idx (ix2 e (0 : Fin 1)))) = some (ix2 n h)
    ↔ land N (idx (ix2 e (0 : Fin 1))) = some n ∧ h' = h
  constructor
  · intro hh
    obtain ⟨m, hm, hmn⟩ := Option.map_eq_some_iff.mp hh
    have h0 : m = n := congrFun hmn (0 : Fin 2)
    have h1 : h' = h := congrFun hmn (1 : Fin 2)
    exact ⟨by rw [hm, h0], h1⟩
  · rintro ⟨hl, rfl⟩
    rw [hl]
    rfl

/-- Row `n`, column `h` of a row scatter-add: the operand's element plus the sum, over the update rows `e` whose
    index word lands on `n`, of the update's element `(e, h)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (h : Fin C) :
    Host.scatterAdd (rowScatter N E C wf) x idx upd (ix2 n h)
      = (x (ix2 n h) + ∑ e ∈ Finset.univ.filter (fun e : Fin E => land N (idx (ix2 e (0 : Fin 1))) = some n),
          upd (ix2 e h) : EReal) := by
  show (x (ix2 n h) + ∑ j ∈ Finset.univ.filter
      (fun j => (rowScatter N E C wf).resultIdx? j idx = some (ix2 n h)), upd j : EReal) = _
  congr 1
  refine Finset.sum_nbij' (fun j => j 0) (fun e => ix2 e h) ?_ ?_ ?_ ?_ ?_
  · intro j hj
    have hj' := (rowScatter_resultIdx_eq_some_iff wf idx j n h).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (rowScatter_resultIdx_eq_some_iff wf idx (ix2 e h) n h).mpr ⟨he', rfl⟩⟩
  · intro j hj
    have hj' := (rowScatter_resultIdx_eq_some_iff wf idx j n h).mp (Finset.mem_filter.mp hj).2
    show ix2 (j 0) h = j
    rw [← hj'.2]
    exact (eq_ix2 j).symm
  · intro e _
    rfl
  · intro j hj
    have hj' := (rowScatter_resultIdx_eq_some_iff wf idx j n h).mp (Finset.mem_filter.mp hj).2
    show upd j = upd (ix2 (j 0) h)
    rw [← hj'.2]
    exact congrArg upd (eq_ix2 j)

/-- A scalar scatter's window start: the index word, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar scatter's window coordinate: zero (a window is one element). -/
theorem vecScatter_window {N E : Nat}
    (wf : ScatterDims.WF ⟨1, ![N]⟩ ⟨2, ![E, 1]⟩ ⟨1, ![E]⟩ [] [0] [0] 1) (e : Fin E) :
    (vecScatter N E wf).window (ix1 e) (0 : Fin 1) = 0 := by
  unfold ScatterDims.window
  have hm : ¬ (0 : Fin 1) ∈ (vecScatter N E wf).sKept :=
    (show ¬ (0 : Fin 1) ∈ (List.finRange 1).filter (fun a => a ∉ ([0] : List (Fin 1))) by decide)
  rw [dif_neg hm]

/-- Where update `e` of a scalar scatter goes: element `land` of its index word. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (land N (idx (ix2 e (0 : Fin 1)))).map (fun n => ix1 n) := by
  have h00 := vecScatter_start wf idx e
  have h10 := vecScatter_window wf e
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 1, 0 ≤ (vecScatter N E wf).start (ix1 e) idx a + ((vecScatter N E wf).window (ix1 e) a : Int)
        ∧ (vecScatter N E wf).start (ix1 e) idx a + ((vecScatter N E wf).window (ix1 e) a : Int)
          < ((⟨1, ![N]⟩ : Shape).size a : Int) := by
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [h00, h10]; simpa using hc
    rw [dif_pos hall]
    congr 1
    funext a
    refine Fin.ext ?_
    obtain rfl : a = 0 := Subsingleton.elim _ _
    show ((vecScatter N E wf).start (ix1 e) idx (0 : Fin 1) + ((vecScatter N E wf).window (ix1 e) (0 : Fin 1) : Int)).toNat
      = (idx (ix2 e (0 : Fin 1))).toInt.toNat
    rw [h00, h10]; simp
  · rw [dif_neg hc, Option.map_none]
    unfold ScatterDims.resultIdx?
    rw [dif_neg]
    intro hall
    have := hall (0 : Fin 1)
    rw [h00, h10] at this
    exact hc (by simpa using this)

/-- Update `j` of a scalar scatter goes to element `n` exactly when its index word lands on `n`. -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (n : Fin N) :
    (vecScatter N E wf).resultIdx? j idx = some (ix1 n) ↔ land N (idx (ix2 (j 0) (0 : Fin 1))) = some n := by
  obtain ⟨e, rfl⟩ : ∃ e : Fin E, j = ix1 e := ⟨j 0, eq_ix1 j⟩
  rw [vecScatter_resultIdx wf idx e]
  show Option.map (fun m => ix1 m) (land N (idx (ix2 e (0 : Fin 1)))) = some (ix1 n)
    ↔ land N (idx (ix2 e (0 : Fin 1))) = some n
  constructor
  · intro hh
    obtain ⟨m, hm, hmn⟩ := Option.map_eq_some_iff.mp hh
    have h0 : m = n := congrFun hmn (0 : Fin 1)
    rw [hm, h0]
  · intro hl
    rw [hl]
    rfl

/-- Element `n` of a scalar scatter-add: the operand's element plus the sum, over the updates `e` whose index word
    lands on `n`, of update `e`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = (x (ix1 n) + ∑ e ∈ Finset.univ.filter (fun e : Fin E => land N (idx (ix2 e (0 : Fin 1))) = some n),
          upd (ix1 e) : EReal) := by
  show (x (ix1 n) + ∑ j ∈ Finset.univ.filter
      (fun j => (vecScatter N E wf).resultIdx? j idx = some (ix1 n)), upd j : EReal) = _
  congr 1
  refine Finset.sum_nbij' (fun j => j 0) (fun e => ix1 e) ?_ ?_ ?_ ?_ ?_
  · intro j hj
    exact Finset.mem_filter.mpr ⟨Finset.mem_univ _,
      (vecScatter_resultIdx_eq_some_iff wf idx j n).mp (Finset.mem_filter.mp hj).2⟩
  · intro e he
    have he' : land N (idx (ix2 e (0 : Fin 1))) = some n := (Finset.mem_filter.mp he).2
    exact Finset.mem_filter.mpr ⟨Finset.mem_univ _,
      (vecScatter_resultIdx_eq_some_iff wf idx (ix1 e) n).mpr he'⟩
  · intro j _
    exact (eq_ix1 j).symm
  · intro e _
    rfl
  · intro j _
    exact congrArg upd (eq_ix1 j)

/-! ## The gathers at an element (any element type) -/

/-- Axis 0 of the operand index of a row gather: the row the index word picks. -/
theorem rowGather_operandIdx_zero {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (0 : Fin 2)).val = (pick N hN (idx (ix2 e (0 : Fin 1)))).val := by
  show (rowGather N E C wf).start (ix2 e h) idx (0 : Fin 2) + (rowGather N E C wf).batchCoord (ix2 e h) (0 : Fin 2)
    + (rowGather N E C wf).offCoord (ix2 e h) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e h) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Axis 1 of the operand index of a row gather: the result's column. -/
theorem rowGather_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (1 : Fin 2)).val = h.val := by
  show (rowGather N E C wf).start (ix2 e h) idx (1 : Fin 2) + (rowGather N E C wf).batchCoord (ix2 e h) (1 : Fin 2)
    + (rowGather N E C wf).offCoord (ix2 e h) (1 : Fin 2) = _
  rw [GatherDims.batchCoord_eq_zero _ _ _ List.not_mem_nil]
  have hs : (rowGather N E C wf).start (ix2 e h) idx (1 : Fin 2) = 0 := by
    unfold GatherDims.start
    rw [dif_neg (show ¬ (1 : Fin 2) ∈ ([0] : List (Fin 2)) by decide)]
  rw [hs]
  simp only [Nat.add_zero, Nat.zero_add]
  unfold GatherDims.offCoord
  rw [dif_pos ((GatherDims.mem_sKept _ _).mpr ⟨show ¬ (1 : Fin 2) ∈ ([0] : List (Fin 2)) by decide, List.not_mem_nil⟩)]
  rfl

/-- Row `e`, column `h` of a row gather: the operand at the row the index word picks, column `h`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowGather N E C wf) x idx (ix2 e h) = x (ix2 (pick N hN (idx (ix2 e (0 : Fin 1)))) h) := by
  unfold Host.gather
  congr 1
  funext a
  refine Fin.ext ?_
  match a with
  | ⟨0, _⟩ => exact rowGather_operandIdx_zero hN wf idx e h
  | ⟨1, _⟩ => exact rowGather_operandIdx_one wf idx e h

/-- Element `e` of a vector gather: the operand at the element the index word picks. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (pick N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowIndex

end
-- ==== Proof.Spec.lean ====
/-
  The graph convolution both programs compute, over plain finite index types.

  `N = 50000` nodes with `128` features, `E = 600000` edges with `16` attributes. Edge `e` runs from the node its
  `row` word picks to the node its `col` word lands on; an edge whose `col` word is not a node number is dropped by
  every scatter. Both programs end at `relu` of

      dis n * (sum over the edges e landing on n of dis (src e) * Y (src e) h) + dis n * dis n * Y n h + b_conv h

  where `Y = (x + agg) W_conv^T`, `agg` the edge embeddings `edge_attr W_edge^T + b_edge` summed into their
  destination nodes, and `dis n = (1 + the number of edges landing on n) ^ (-1/2)`.

  `outRef` spells this the way the plain jnp program computes it: the embeddings of all edges first, then their
  scatter, the normalisation `dis (src e) * dis (dst e)` edge by edge. `outFused` spells it the way the tiled program
  does: the scatter first, on the raw attributes (the embedding is linear, so the sum of the embeddings is the embedding
  of the sum plus one bias per edge); `dis n` multiplied into `Y` row by row before the message scatter, and once more
  after it. The two agree when every float input is a real number (Proof/Algebra.lean); at an infinite input the
  distributive law they differ by fails.
-/
import proofs.«148007_j53257594471012_2_alg».proof.Proof.LibRowIndex

noncomputable section

open scoped BigOperators

namespace Cert.Gcn

open Idealize.ShloMosaic Idealize.ShloMosaic.ValueIdx Cert.Lib.RowIndex

/-! ## Views of arrays by coordinates -/

/-- A rank-2 array as a function of its two coordinates. -/
abbrev mat {α : Type} {n0 n1 : Nat} (a : (⟨2, ![n0, n1]⟩ : Shape).Idx → α) : Fin n0 → Fin n1 → α := fun i j => a (ix2 i j)
/-- A rank-1 array as a function of its coordinate. -/
abbrev vec {α : Type} {n : Nat} (a : (⟨1, ![n]⟩ : Shape).Idx → α) : Fin n → α := fun i => a (ix1 i)

/-! ## Index words -/

/-- jnp's normalisation of an index word before a gather among 50000 rows: a negative word counts from the end. -/
def wrapWord (c : BitVec 32) : BitVec 32 :=
  Scalar.select (IntOp.cmpi .slt c 0#32) (IntOp.addi c 50000#32) c

/-- The node an index word picks in a gather (after jnp's normalisation, clamped). -/
def src (c : BitVec 32) : Fin 50000 := pick 50000 (by decide) (wrapWord c)

/-- The edges whose `col` word lands on node `n`. -/
def Lands (col : Fin 600000 → BitVec 32) (n : Fin 50000) : Finset (Fin 600000) :=
  Finset.univ.filter (fun e => land 50000 (col e) = some n)

/-- A scatter-add into zeros: the sum over the edges landing on `n`. -/
def segSum (col : Fin 600000 → BitVec 32) (f : Fin 600000 → EReal) (n : Fin 50000) : EReal :=
  0 + ∑ e ∈ Lands col n, f e

/-! ## The two tiled kernels, as whole-array functions -/

/-- The first kernel: `D n * ((X + EA WT + Cn B) WcT) n h`, in the body's order of operations. -/
def nodeFused (X : Fin 50000 → Fin 128 → EReal) (EA : Fin 50000 → Fin 16 → EReal) (Cn D : Fin 50000 → EReal)
    (WT : Fin 16 → Fin 128 → EReal) (B : Fin 128 → EReal) (WcT : Fin 128 → Fin 128 → EReal)
    (n : Fin 50000) (h : Fin 128) : EReal :=
  D n * ∑ d : Fin 128, ((X n d + ∑ k : Fin 16, EA n k * WT k d) + Cn n * B d) * WcT d h

/-- The second kernel: `relu (D n * (S n h + Y n h) + Bc h)`. -/
def finalCombine (S Y : Fin 50000 → Fin 128 → EReal) (D : Fin 50000 → EReal) (Bc : Fin 128 → EReal)
    (n : Fin 50000) (h : Fin 128) : EReal :=
  max (D n * (S n h + Y n h) + Bc h) 0

section Forms

variable (X : Fin 50000 → Fin 128 → EReal) (A : Fin 600000 → Fin 16 → EReal) (We : Fin 128 → Fin 16 → EReal)
  (be : Fin 128 → EReal) (Wc : Fin 128 → Fin 128 → EReal) (bc : Fin 128 → EReal) (row col : Fin 600000 → BitVec 32)

/-- The number of edges landing on a node (a sum of ones into zero). -/
def cnt (n : Fin 50000) : EReal := segSum col (fun _ => 1) n
/-- The degree with its self loop. -/
def deg (n : Fin 50000) : EReal := cnt col n + 1

/-! ## The tiled program's form -/

/-- The attributes of the edges landing on a node, summed. -/
def eaAgg (n : Fin 50000) (k : Fin 16) : EReal := segSum col (fun e => A e k) n
/-- `deg ^ (-1/2)`. -/
def disF (n : Fin 50000) : EReal := Ideal.rsqrt (deg col n)
/-- The first kernel's result: the convolved features, already scaled by `dis`. -/
def yScaled : Fin 50000 → Fin 128 → EReal :=
  nodeFused X (eaAgg A col) (cnt col) (disF col) (fun k d => We d k) be (fun d h => Wc h d)
/-- The scaled rows gathered at the edges' sources and summed into their destinations. -/
def scatF (n : Fin 50000) (h : Fin 128) : EReal := segSum col (fun e => yScaled X A We be Wc col (src (row e)) h) n
/-- The tiled program's result. -/
def outFused : Fin 50000 → Fin 128 → EReal :=
  finalCombine (scatF X A We be Wc row col) (yScaled X A We be Wc col) (disF col) bc

/-! ## The plain program's form -/

/-- One edge's embedding. -/
def emb (e : Fin 600000) (d : Fin 128) : EReal := (∑ k : Fin 16, A e k * We d k) + be d
/-- The features with the embeddings of the incoming edges added. -/
def xAgg (n : Fin 50000) (d : Fin 128) : EReal := X n d + segSum col (fun e => emb A We be e d) n
/-- The convolved features. -/
def yRef (n : Fin 50000) (h : Fin 128) : EReal := ∑ d : Fin 128, xAgg X A We be col n d * Wc h d
/-- `deg ^ (-1/2)`, guarded as the plain program guards it. -/
def disR (n : Fin 50000) : EReal := if 0 < deg col n then Ideal.rsqrt (deg col n) else 0
/-- One edge's message. -/
def msg (e : Fin 600000) (h : Fin 128) : EReal :=
  (disR col (src (row e)) * disR col (src (col e))) * yRef X A We be Wc col (src (row e)) h
/-- The plain program's result. -/
def outRef (n : Fin 50000) (h : Fin 128) : EReal :=
  max (((segSum col (fun e => msg X A We be Wc row col e h) n) + (disR col n * disR col n) * yRef X A We be Wc col n h) + bc h) 0

end Forms

end Cert.Gcn

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Region0.lean ====
/-
  The first tiled kernel as one function of whole arrays.

  Its grid has 25 points; point t holds rows 2000 t … 2000 t + 1999 of the node arrays (the features, the summed edge
  attributes, the in-degree column and the dis column) and the three small arrays whole. The body computes, row by row,
  dis * ((x + ea W_edge^T + deg b_edge) W_conv^T): two matrix products into zero accumulators (sums over the 16 and the 128
  contracted coordinates on the extended reals; the changes of float format are the identity there). Each block is the
  restriction of ONE whole-array function, `Cert.Gcn.nodeFused` of the arrays as the region finds them, and the 25 blocks
  cover the array: so the array after the region is that function.
-/
import proofs.«148007_j53257594471012_2_alg».proof.Proof.Gen.KernelIdeal.Frame
import proofs.«148007_j53257594471012_2_alg».proof.Proof.Spec
import proofs.«148007_j53257594471012_2_alg».proof.Proof.LibKeepdims
import proofs.«148007_j53257594471012_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.Gcn

/-- The body's one stored value at row `p` and column `q` of a block, over the blocks it loads:
    `dis p * ∑ d, ((x p d + ∑ k, ea p k * wt k d) + deg p * b d) * wc d q`. Each matrix product into a zero accumulator is
    the sum over its contracted coordinate; a column spread over the columns, or a row over the rows, is read at its one
    coordinate; the changes of float format are the identity on the extended reals. Entry `(p, q)` depends on row `p` of
    the node blocks only. -/
theorem pay_at (ea : FVec Ideal S2000x16 .f32) (wt : FVec Ideal S16x128 .f32) (x : FVec Ideal S2000x128 .f32)
    (deg : FVec Ideal S2000x1 .f32) (b : FVec Ideal S1x128 .f32) (wc : FVec Ideal S128x128 .f32)
    (dis : FVec Ideal S2000x1 .f32) (p : Fin 2000) (q : Fin 128) :
    k0_pay1 (F := Ideal) ea wt x deg b wc dis (ix2 p q)
      = dis (ix2 p (0 : Fin 1)) * ∑ d : Fin 128,
          ((x (ix2 p d) + ∑ k : Fin 16, ea (ix2 p k) * wt (ix2 k d)) + deg (ix2 p (0 : Fin 1)) * b (ix2 (0 : Fin 1) d))
            * wc (ix2 d q) := by
  unfold k0_pay1
  simp only [shapeCast_self]
  refine congrArg₂ (· * ·) (Cert.Keepdims.broadcastTo_a1_ab_apply dis broadcasts_S2000x1_S2000x128 p q) ?_
  refine (Cert.PlainDot.matmul_zero_apply 2000 128 128 none _ _ (ix2 p q)).trans ?_
  refine Finset.sum_congr rfl fun d _ => ?_
  refine congrArg (· * wc (ix2 d q)) ?_
  refine congrArg₂ (· + ·) (congrArg (x (ix2 p d) + ·) ?_) ?_
  · exact Cert.PlainDot.matmul_zero_apply 2000 16 128 none _ _ (ix2 p d)
  · exact congrArg₂ (· * ·) (Cert.Keepdims.broadcastTo_a1_ab_apply deg broadcasts_S2000x1_S2000x128 p d)
      (broadcastTo_1b_ab_apply b broadcasts_S1x128_S2000x128 p d)

/-- The same value when the blocks are rows of whole arrays: row `p` of each node block is row `n` of its array, the
    three small blocks are their arrays. -/
theorem pay_rows (X : FVec Ideal S50000x128 .f32) (EA : FVec Ideal S50000x16 .f32) (Cn D : FVec Ideal S50000x1 .f32)
    (WT : FVec Ideal S16x128 .f32) (B : FVec Ideal S1x128 .f32) (Wc : FVec Ideal S128x128 .f32)
    (ea : FVec Ideal S2000x16 .f32) (wt : FVec Ideal S16x128 .f32) (x : FVec Ideal S2000x128 .f32)
    (deg : FVec Ideal S2000x1 .f32) (b : FVec Ideal S1x128 .f32) (wc : FVec Ideal S128x128 .f32)
    (dis : FVec Ideal S2000x1 .f32) (p : Fin 2000) (q : Fin 128) (n : Fin 50000)
    (hx : ∀ d : Fin 128, x (ix2 p d) = X (ix2 n d)) (hea : ∀ k : Fin 16, ea (ix2 p k) = EA (ix2 n k))
    (hdeg : deg (ix2 p (0 : Fin 1)) = Cn (ix2 n (0 : Fin 1))) (hdis : dis (ix2 p (0 : Fin 1)) = D (ix2 n (0 : Fin 1)))
    (hwt : ∀ (k : Fin 16) (d : Fin 128), wt (ix2 k d) = WT (ix2 k d)) (hb : ∀ d : Fin 128, b (ix2 (0 : Fin 1) d) = B (ix2 (0 : Fin 1) d))
    (hwc : ∀ d e : Fin 128, wc (ix2 d e) = Wc (ix2 d e)) :
    k0_pay1 (F := Ideal) ea wt x deg b wc dis (ix2 p q)
      = nodeFused (mat X) (mat EA) (fun n => Cn (ix2 n (0 : Fin 1))) (fun n => D (ix2 n (0 : Fin 1))) (mat WT)
          (fun d => B (ix2 (0 : Fin 1) d)) (mat Wc) n q := by
  rw [pay_at, hdis, hdeg]
  unfold nodeFused
  refine congrArg (D (ix2 n (0 : Fin 1)) * ·) (Finset.sum_congr rfl fun d _ => ?_)
  rw [hx d, hb d, hwc d q]
  refine congrArg (fun s => ((X (ix2 n d) + s) + Cn (ix2 n (0 : Fin 1)) * B (ix2 (0 : Fin 1) d)) * Wc (ix2 d q)) ?_
  exact Finset.sum_congr rfl fun k _ => by rw [hea k, hwt k d]

variable (V : (c : Dev nD) → (b : Ref sig .tc) → Buf (Elt Ideal) ((c : Thread nD τ).loc b))

theorem hz : (![0, 0] : Fin 2 → Nat) = fun _ => 0 := funext fun a => by fin_cases a <;> rfl

/-- The output array as one function of the arrays the region finds. -/
def wholeOut (c : Dev nD) : S50000x128.Idx → Elt Ideal .f32 := fun i =>
  nodeFused (mat (V c main_arg0 : FVec Ideal S50000x128 .f32)) (mat (V c main_v6 : FVec Ideal S50000x16 .f32))
    (fun n => (V c main_v14 : FVec Ideal S50000x1 .f32) (ix2 n (0 : Fin 1)))
    (fun n => (V c main_v15 : FVec Ideal S50000x1 .f32) (ix2 n (0 : Fin 1)))
    (mat (V c main_v16 : FVec Ideal S16x128 .f32))
    (fun d => (V c main_v18 : FVec Ideal S1x128 .f32) (ix2 (0 : Fin 1) d))
    (mat (V c main_v17 : FVec Ideal S128x128 .f32)) (i 0) (i 1)

/-- The windows' index maps over the grid: the node windows' block row is the point, every other block index is zero. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! Each input block, entry by entry, as an entry of its array: a block's coordinate on an axis is its block index times
    the block's extent plus the coordinate inside the block, so row `p` of point `t`'s node blocks is row `2000 t + p` of
    their arrays, and the one block of each small array is the array. -/

theorem blk_x (c : Dev nD) (t : Fin cfg0.N) (p : Fin 2000) (d : Fin 128) (n : Fin 50000) (hn : n.val = 2000 * t.val + p.val) :
    (iblk0 V c 0 t : FVec Ideal S2000x128 .f32) (ix2 p d) = (V c main_arg0 : FVec Ideal S50000x128 .f32) (ix2 n d) := by
  obtain ⟨-, -, e0, e1, -⟩ := idx_facts t
  unfold iblk0
  rw [View.read_apply]
  show (V c main_arg0 : FVec Ideal S50000x128 .f32) _ = _
  refine congrArg _ (funext fun a => Fin.ext ?_)
  match a with
  | ⟨0, _⟩ => show win0_0.index t (0 : Fin 2) * 2000 + 1 * p.val = n.val; omega
  | ⟨1, _⟩ => show win0_0.index t (1 : Fin 2) * 128 + 1 * d.val = d.val; omega

theorem blk_ea (c : Dev nD) (t : Fin cfg0.N) (p : Fin 2000) (k : Fin 16) (n : Fin 50000) (hn : n.val = 2000 * t.val + p.val) :
    (iblk0 V c 1 t : FVec Ideal S2000x16 .f32) (ix2 p k) = (V c main_v6 : FVec Ideal S50000x16 .f32) (ix2 n k) := by
  obtain ⟨-, -, -, -, e0, e1, -⟩ := idx_facts t
  unfold iblk0
  rw [View.read_apply]
  show (V c main_v6 : FVec Ideal S50000x16 .f32) _ = _
  refine congrArg _ (funext fun a => Fin.ext ?_)
  match a with
  | ⟨0, _⟩ => show win0_1.index t (0 : Fin 2) * 2000 + 1 * p.val = n.val; omega
  | ⟨1, _⟩ => show win0_1.index t (1 : Fin 2) * 16 + 1 * k.val = k.val; omega

theorem blk_deg (c : Dev nD) (t : Fin cfg0.N) (p : Fin 2000) (n : Fin 50000) (hn : n.val = 2000 * t.val + p.val) :
    (iblk0 V c 2 t : FVec Ideal S2000x1 .f32) (ix2 p (0 : Fin 1)) = (V c main_v14 : FVec Ideal S50000x1 .f32) (ix2 n (0 : Fin 1)) := by
  obtain ⟨-, -, -, -, -, -, e0, e1, -⟩ := idx_facts t
  unfold iblk0
  rw [View.read_apply]
  show (V c main_v14 : FVec Ideal S50000x1 .f32) _ = _
  refine congrArg _ (funext fun a => Fin.ext ?_)
  match a with
  | ⟨0, _⟩ => show win0_2.index t (0 : Fin 2) * 2000 + 1 * p.val = n.val; omega
  | ⟨1, _⟩ => show win0_2.index t (1 : Fin 2) * 1 + 1 * 0 = 0; omega

theorem blk_dis (c : Dev nD) (t : Fin cfg0.N) (p : Fin 2000) (n : Fin 50000) (hn : n.val = 2000 * t.val + p.val) :
    (iblk0 V c 3 t : FVec Ideal S2000x1 .f32) (ix2 p (0 : Fin 1)) = (V c main_v15 : FVec Ideal S50000x1 .f32) (ix2 n (0 : Fin 1)) := by
  obtain ⟨-, -, -, -, -, -, -, -, e0, e1, -⟩ := idx_facts t
  unfold iblk0
  rw [View.read_apply]
  show (V c main_v15 : FVec Ideal S50000x1 .f32) _ = _
  refine congrArg _ (funext fun a => Fin.ext ?_)
  match a with
  | ⟨0, _⟩ => show win0_3.index t (0 : Fin 2) * 2000 + 1 * p.val = n.val; omega
  | ⟨1, _⟩ => show win0_3.index t (1 : Fin 2) * 1 + 1 * 0 = 0; omega

theorem blk_wt (c : Dev nD) (t : Fin cfg0.N) (k : Fin 16) (d : Fin 128) :
    (iblk0 V c 4 t : FVec Ideal S16x128 .f32) (ix2 k d) = (V c main_v16 : FVec Ideal S16x128 .f32) (ix2 k d) := by
  obtain ⟨-, -, -, -, -, -, -, -, -, -, e0, e1, -⟩ := idx_facts t
  unfold iblk0
  rw [View.read_apply]
  show (V c main_v16 : FVec Ideal S16x128 .f32) _ = _
  refine congrArg _ (funext fun a => Fin.ext ?_)
  match a with
  | ⟨0, _⟩ => show win0_4.index t (0 : Fin 2) * 16 + 1 * k.val = k.val; omega
  | ⟨1, _⟩ => show win0_4.index t (1 : Fin 2) * 128 + 1 * d.val = d.val; omega

theorem blk_b (c : Dev nD) (t : Fin cfg0.N) (d : Fin 128) :
    (iblk0 V c 5 t : FVec Ideal S1x128 .f32) (ix2 (0 : Fin 1) d) = (V c main_v18 : FVec Ideal S1x128 .f32) (ix2 (0 : Fin 1) d) := by
  obtain ⟨-, -, -, -, -, -, -, -, -, -, -, -, e0, e1, -⟩ := idx_facts t
  unfold iblk0
  rw [View.read_apply]
  show (V c main_v18 : FVec Ideal S1x128 .f32) _ = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * d.val = d.val; omega

theorem blk_wc (c : Dev nD) (t : Fin cfg0.N) (d e : Fin 128) :
    (iblk0 V c 6 t : FVec Ideal S128x128 .f32) (ix2 d e) = (V c main_v17 : FVec Ideal S128x128 .f32) (ix2 d e) := by
  obtain ⟨-, -, -, -, -, -, -, -, -, -, -, -, -, -, e0, e1⟩ := idx_facts t
  unfold iblk0
  rw [View.read_apply]
  show (V c main_v17 : FVec Ideal S128x128 .f32) _ = _
  refine congrArg _ (funext fun a => Fin.ext ?_)
  match a with
  | ⟨0, _⟩ => show win0_6.index t (0 : Fin 2) * 128 + 1 * d.val = d.val; omega
  | ⟨1, _⟩ => show win0_6.index t (1 : Fin 2) * 128 + 1 * e.val = e.val; omega

/-- What point `t` writes back is block `t` of `wholeOut`: entry `(p, q)` of the stored value is computed from row `p` of
    the node blocks, which is row `2000 t + p` of the arrays, and from the small arrays, and so is `wholeOut` at
    `(2000 t + p, q)`, the array index of the block's entry `(p, q)`. -/
theorem flushed_eq (c : Dev nD) (t : Fin cfg0.N) :
    (dat0 (F := Ideal) V c).flushed 7 t = ((cfg0.win 7).blk t).view.read (Elt Ideal) (wholeOut V c) := by
  show (cfg0.win 7).cut (grid0.coords t) ((dat0 (F := Ideal) V c).after 7 t) = _
  rw [after0_7]
  unfold out0_7
  rw [View.canon_unit_zero hz]
  simp only [View.ld_unit_zero (S := S2000x128) hz, View.ld_unit_zero (S := S2000x16) hz, View.ld_unit_zero (S := S2000x1) hz,
    View.ld_unit_zero (S := S16x128) hz, View.ld_unit_zero (S := S1x128) hz, View.ld_unit_zero (S := S128x128) hz]
  funext j
  have hj0 : (j 0).val < 2000 := (j 0).isLt
  have hj1 : (j 1).val < 128 := (j 1).isLt
  obtain ⟨e0, e1, -⟩ := idx_facts t
  have ht : t.val < 25 := t.isLt
  have hxi : (win0 7).xinj (grid0.coords t) j = ix2 (⟨(j 0).val, hj0⟩ : Fin 2000) (⟨(j 1).val, hj1⟩ : Fin 128) :=
    funext (Fin.forall_fin_two.mpr ⟨rfl, rfl⟩)
  have hn1 : (((cfg0.win 7).blk t).view.emb j) 1 = (⟨(j 1).val, hj1⟩ : Fin 128) :=
    Fin.ext (by show win0_7.index t (1 : Fin 2) * 128 + 1 * (j 1).val = (j 1).val; omega)
  have hn0 : ((((cfg0.win 7).blk t).view.emb j) 0).val = 2000 * t.val + (j 0).val := by
    show win0_7.index t (0 : Fin 2) * 2000 + 1 * (j 0).val = _; omega
  refine (congrArg (k0_pay1 (F := Ideal) (iblk0 V c 1 t) (iblk0 V c 4 t) (iblk0 V c 0 t) (iblk0 V c 2 t) (iblk0 V c 5 t) (iblk0 V c 6 t)
        (iblk0 V c 3 t)) hxi).trans ?_
  rw [View.read_apply, cast_eq]
  unfold wholeOut
  rw [hn1]
  exact pay_rows (V c main_arg0) (V c main_v6) (V c main_v14) (V c main_v15) (V c main_v16) (V c main_v18) (V c main_v17)
    (iblk0 V c 1 t) (iblk0 V c 4 t) (iblk0 V c 0 t) (iblk0 V c 2 t) (iblk0 V c 5 t) (iblk0 V c 6 t) (iblk0 V c 3 t)
    ⟨(j 0).val, hj0⟩ ⟨(j 1).val, hj1⟩ ((((cfg0.win 7).blk t).view.emb j) 0)
    (fun d => blk_x V c t _ d _ hn0) (fun k => blk_ea V c t _ k _ hn0) (blk_deg V c t _ _ hn0) (blk_dis V c t _ _ hn0)
    (fun k d => blk_wt V c t k d) (fun d => blk_b V c t d) (fun d e => blk_wc V c t d e)

/-- Point `t`'s output block is a rectangle of the array: an index lies in it iff, on each axis, its coordinate is at
    least the block index times the block's extent and less than that plus the extent. -/
theorem mem_block (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v20).slice (win0_7.rect t)).set ↔ _
  rw [View.set_slice_whole, Rect.mem_set_unit]
  exact Iff.rfl

/-- The 25 blocks of 2000 rows cover the 50000 rows: row `r` is in the block of point `r / 2000`. -/
theorem blocks_cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hlt : (i 0).val / 2000 < cfg0.N := by rw [show cfg0.N = 25 from N_0]; omega
  obtain ⟨e0, e1, -⟩ := idx_facts ⟨(i 0).val / 2000, hlt⟩
  have e0' : win0_7.index ⟨(i 0).val / 2000, hlt⟩ (0 : Fin 2) = (i 0).val / 2000 := e0
  refine ⟨⟨(i 0).val / 2000, hlt⟩, flush0_7 _, ?_⟩
  rw [mem_block]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    omega
  | ⟨1, _⟩ =>
    show win0_7.index ⟨(i 0).val / 2000, hlt⟩ (1 : Fin 2) * 128 ≤ (i 1).val
      ∧ (i 1).val < win0_7.index ⟨(i 0).val / 2000, hlt⟩ (1 : Fin 2) * 128 + 128
    omega

/-- Every point writes its block of `wholeOut` and the blocks cover the array: the array after the region is `wholeOut`. -/
theorem final0 (c : Dev nD) : (dat0 (F := Ideal) V c).arrAt 7 cfg0.N = wholeOut V c :=
  (dat0 (F := Ideal) V c).arrAt_eq_of_cover 7 (wholeOut V c) (fun t _ => flushed_eq V c t) blocks_cover

/-- The first kernel's output array after the region, at node `n` and feature `h`, whatever the arrays held at entry. -/
theorem final0_apply (c : Dev nD) (n : Fin 50000) (h : Fin 128) :
    ((dat0 (F := Ideal) V c).arrAt 7 cfg0.N : FVec Ideal S50000x128 .f32) (ix2 n h)
      = nodeFused (mat (V c main_arg0 : FVec Ideal S50000x128 .f32)) (mat (V c main_v6 : FVec Ideal S50000x16 .f32))
          (fun n => (V c main_v14 : FVec Ideal S50000x1 .f32) (ix2 n (0 : Fin 1)))
          (fun n => (V c main_v15 : FVec Ideal S50000x1 .f32) (ix2 n (0 : Fin 1)))
          (mat (V c main_v16 : FVec Ideal S16x128 .f32))
          (fun d => (V c main_v18 : FVec Ideal S1x128 .f32) (ix2 (0 : Fin 1) d))
          (mat (V c main_v17 : FVec Ideal S128x128 .f32)) n h :=
  congrFun (final0 V c) (ix2 n h)

end Cert.KernelIdeal.Region0

end
-- ==== Proof.Region1.lean ====
/-
  The second tiled kernel as one function of whole arrays.

  Its grid has 10 points; point t holds rows 5000 t … 5000 t + 4999 of the scattered messages, of the scaled features and
  of the dis column, and the bias row whole. The body is pointwise: max (dis * (s + y) + b_conv) 0. Each block is the
  restriction of `Cert.Gcn.finalCombine` of the arrays as the region finds them, and the 10 blocks cover the array.

  The steps: the body's arithmetic read at one row and lane of a block (`pay1_at`); each input block as rows of its
  array (`blk1_0_apply` … `blk1_3_apply`); what a grid point writes back is its block of the whole-array function
  (`flushed1_eq`); every index of the output lies in the block of point `row / 5000` (`cover1`); so the output array
  is the whole-array function (`final1`, `final1_apply`).
-/
import proofs.«148007_j53257594471012_2_alg».proof.Proof.Gen.KernelIdeal.Frame
import proofs.«148007_j53257594471012_2_alg».proof.Proof.Gen.KernelIdeal.Points
import proofs.«148007_j53257594471012_2_alg».proof.Proof.Spec
import proofs.«148007_j53257594471012_2_alg».proof.Proof.LibKeepdims
import Idealize.ShloMosaic.Lib.Pipeline.Value
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.Gcn

/-! ## The body's arithmetic at an index of a block -/

/-- The body's result at row `p`, lane `q` of a block: the dis column and the bias row are broadcast over the block, the
    casts to the same shape are the identity, and the zero splat is the extended real `0`. -/
theorem pay1_at (d : FVec Ideal S5000x1 .f32) (s y : FVec Ideal S5000x128 .f32) (b : FVec Ideal S1x128 .f32)
    (p : Fin 5000) (q : Fin 128) :
    k1_pay1 (F := Ideal) d s y b (ix2 p q)
      = max (d (ix2 p (0 : Fin 1)) * (s (ix2 p q) + y (ix2 p q)) + b (ix2 (0 : Fin 1) q)) 0 := by
  unfold k1_pay1
  simp only [shapeCast_self]
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · exact Cert.Keepdims.broadcastTo_a1_ab_apply d _ p q
      · exact addf_apply s y _
    · exact broadcastTo_1b_ab_apply b _ p q
  · exact Ideal.ofBits_zero_f32

variable (V : (c : Dev nD) → (b : Ref sig .tc) → Buf (Elt Ideal) ((c : Thread nD τ).loc b))

/-! ## The blocks as rows of the arrays -/

theorem hz1 : (![0, 0] : Fin 2 → Nat) = fun _ => 0 := funext fun a => by fin_cases a <;> rfl

/-- The block indices of the five windows at grid point `t`, decided over the 10 points: row block `t` (for the bias
    row, block 0) and lane block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The whole output array as one function of the arrays the region finds: `finalCombine` of them, index by index. -/
def G1 (c : Dev nD) : FVec Ideal S50000x128 .f32 := fun i =>
  finalCombine (mat (V c main_v30 : FVec Ideal S50000x128 .f32)) (mat (V c main_v20 : FVec Ideal S50000x128 .f32))
    (fun n => (V c main_v15 : FVec Ideal S50000x1 .f32) (ix2 n (0 : Fin 1)))
    (fun d => (V c main_v19 : FVec Ideal S1x128 .f32) (ix2 (0 : Fin 1) d)) (i 0) (i 1)

/-- Block `t` of the scattered messages is rows `5000 t … 5000 t + 4999` of their array. -/
theorem blk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v30 : FVec Ideal S50000x128 .f32) k := by
  obtain ⟨i0, i1, -⟩ := idx1 t
  unfold iblk1
  rw [View.read_apply]
  show V c main_v30 _ = V c main_v30 _
  congr 1
  funext a
  apply Fin.ext
  match a with
  | ⟨0, _⟩ => show win1_0.index t 0 * 5000 + 1 * (x 0).val = (k 0).val; rw [i0, hk0]; omega
  | ⟨1, _⟩ => show win1_0.index t 1 * 128 + 1 * (x 1).val = (k 1).val; rw [i1, hk1]; omega

/-- Block `t` of the scaled features is the same rows of their array. -/
theorem blk1_1_apply (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_v20 : FVec Ideal S50000x128 .f32) k := by
  obtain ⟨-, -, i0, i1, -⟩ := idx1 t
  unfold iblk1
  rw [View.read_apply]
  show V c main_v20 _ = V c main_v20 _
  congr 1
  funext a
  apply Fin.ext
  match a with
  | ⟨0, _⟩ => show win1_1.index t 0 * 5000 + 1 * (x 0).val = (k 0).val; rw [i0, hk0]; omega
  | ⟨1, _⟩ => show win1_1.index t 1 * 128 + 1 * (x 1).val = (k 1).val; rw [i1, hk1]; omega

/-- Block `t` of the dis column is the same rows of the column. -/
theorem blk1_2_apply (c : Dev nD) (t : Fin cfg1.N) (x : S5000x1.Idx) (k : S50000x1.Idx)
    (hk0 : (k 0).val = 5000 * t.val + (x 0).val) (hk1 : (k 1).val = (x 1).val) :
    (iblk1 V c 2 t : Vec Ideal S5000x1 .f32) x = (V c main_v15 : FVec Ideal S50000x1 .f32) k := by
  obtain ⟨-, -, -, -, i0, i1, -⟩ := idx1 t
  unfold iblk1
  rw [View.read_apply]
  show V c main_v15 _ = V c main_v15 _
  congr 1
  funext a
  apply Fin.ext
  match a with
  | ⟨0, _⟩ => show win1_2.index t 0 * 5000 + 1 * (x 0).val = (k 0).val; rw [i0, hk0]; omega
  | ⟨1, _⟩ => show win1_2.index t 1 * 1 + 1 * (x 1).val = (k 1).val; rw [i1, hk1]; omega

/-- The bias row's one block is the row. -/
theorem blk1_3_apply (c : Dev nD) (t : Fin cfg1.N) (x : S1x128.Idx) (k : S1x128.Idx)
    (hk0 : (k 0).val = (x 0).val) (hk1 : (k 1).val = (x 1).val) :
    (iblk1 V c 3 t : Vec Ideal S1x128 .f32) x = (V c main_v19 : FVec Ideal S1x128 .f32) k := by
  obtain ⟨-, -, -, -, -, -, i0, i1, -⟩ := idx1 t
  unfold iblk1
  rw [View.read_apply]
  show V c main_v19 _ = V c main_v19 _
  congr 1
  funext a
  apply Fin.ext
  match a with
  | ⟨0, _⟩ => show win1_3.index t 0 * 1 + 1 * (x 0).val = (k 0).val; rw [i0, hk0]; omega
  | ⟨1, _⟩ => show win1_3.index t 1 * 128 + 1 * (x 1).val = (k 1).val; rw [i1, hk1]; omega

/-! ## From the blocks to the array -/

/-- What grid point `t` writes back is block `t` of the whole-array function: the body stores one whole block, its
    entry at `(p, q)` is the arithmetic of `pay1_at` over the input blocks, and each input block's entry is the entry of
    its array at row `5000 t + p` — the row of the output block's entry `(p, q)`. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S5000x1) hz1, View.ld_unit_zero (S := S1x128) hz1]
  funext j
  have hj0 : (j 0).val < 5000 := (j 0).isLt
  have hj1 : (j 1).val < 128 := (j 1).isLt
  have hx : (win1 4).xinj (grid1.coords t) j = ix2 (⟨(j 0).val, hj0⟩ : Fin 5000) (⟨(j 1).val, hj1⟩ : Fin 128) :=
    funext (Fin.forall_fin_two.mpr ⟨rfl, rfl⟩)
  refine (congrArg (k1_pay1 (F := Ideal) (iblk1 V c 2 t) (iblk1 V c 0 t) (iblk1 V c 1 t) (iblk1 V c 3 t)) hx).trans ?_
  refine (pay1_at (iblk1 V c 2 t) (iblk1 V c 0 t) (iblk1 V c 1 t) (iblk1 V c 3 t) ⟨(j 0).val, hj0⟩ ⟨(j 1).val, hj1⟩).trans ?_
  rw [View.read_apply, cast_eq]
  obtain ⟨-, -, -, -, -, -, -, -, o0, o1⟩ := idx1 t
  have hk0 : ((((View.whole main_v31).slice ((win1 4).rect t)).emb j) 0).val = 5000 * t.val + (j 0).val := by
    show win1_4.index t 0 * 5000 + 1 * (j 0).val = _
    rw [o0]; omega
  have hk1 : ((((View.whole main_v31).slice ((win1 4).rect t)).emb j) 1).val = (j 1).val := by
    show win1_4.index t 1 * 128 + 1 * (j 1).val = _
    rw [o1]; omega
  unfold G1 finalCombine
  refine congrArg₂ max (congrArg₂ (· + ·) (congrArg₂ (· * ·) ?_ (congrArg₂ (· + ·) ?_ ?_)) ?_) rfl
  · exact blk1_2_apply V c t (ix2 ⟨(j 0).val, hj0⟩ (0 : Fin 1)) _ hk0 rfl
  · exact blk1_0_apply V c t (ix2 ⟨(j 0).val, hj0⟩ ⟨(j 1).val, hj1⟩) _ hk0 hk1
  · exact blk1_1_apply V c t (ix2 ⟨(j 0).val, hj0⟩ ⟨(j 1).val, hj1⟩) _ hk0 hk1
  · exact blk1_3_apply V c t (ix2 (0 : Fin 1) ⟨(j 1).val, hj1⟩) _ rfl hk1

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v31).slice (win1_4.rect t)).set ↔ _
  rw [View.set_slice_whole, Rect.mem_set_unit]
  exact Iff.rfl

/-- The ten blocks cover the output array: row `r` lies in the block of point `r / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  refine ⟨t, flush1_4 t, ?_⟩
  rw [mem_blk1]
  obtain ⟨-, -, -, -, -, -, -, -, o0, o1⟩ := idx1 t
  intro a
  match a with
  | ⟨0, _⟩ =>
    show win1_4.index t (0 : Fin 2) * 5000 ≤ (i 0).val ∧ (i 0).val < win1_4.index t (0 : Fin 2) * 5000 + 5000
    rw [o0, ht]; omega
  | ⟨1, _⟩ =>
    show win1_4.index t (1 : Fin 2) * 128 ≤ (i 1).val ∧ (i 1).val < win1_4.index t (1 : Fin 2) * 128 + 128
    rw [o1]; omega

/-- So the output array ends holding the whole-array function, whatever it held at entry. -/
theorem final1 (c : Dev nD) : (dat1 (F := Ideal) V c).arrAt 4 cfg1.N = G1 V c :=
  (dat1 (F := Ideal) V c).arrAt_eq_of_cover 4 (G1 V c) (fun t _ => flushed1_eq V c t) cover1

/-- The second kernel's output array after the region, at node `n` and feature `h`, whatever the arrays held at entry. -/
theorem final1_apply (c : Dev nD) (n : Fin 50000) (h : Fin 128) :
    ((dat1 (F := Ideal) V c).arrAt 4 cfg1.N : FVec Ideal S50000x128 .f32) (ix2 n h)
      = finalCombine (mat (V c main_v30 : FVec Ideal S50000x128 .f32)) (mat (V c main_v20 : FVec Ideal S50000x128 .f32))
          (fun n => (V c main_v15 : FVec Ideal S50000x1 .f32) (ix2 n (0 : Fin 1)))
          (fun d => (V c main_v19 : FVec Ideal S1x128 .f32) (ix2 (0 : Fin 1) d)) n h :=
  congrFun (final1 V c) (ix2 n h)

end Cert.KernelIdeal.Region1

end
-- ==== Proof.KernelValuePrefix.lean ====
/-
  The host operations before the first kernel, read at an index.

  Before the first kernel the host slices the edge-index argument into its two rows of words, scatters the edge attributes and
  a column of ones into zeros along the `col` words (the summed attributes and the in-degree of every node), takes
  `(in-degree + 1) ^ (-1/2)`, and lays the small arrays out as the kernel wants them (two transposes, two reshapes to one
  row). Each of these arrays, read at an index, is the corresponding term of the graph convolution's tiled form.
-/
import proofs.«148007_j53257594471012_2_alg».proof.Proof.Gen.KernelIdeal.Frame
import proofs.«148007_j53257594471012_2_alg».proof.Proof.Spec
import proofs.«148007_j53257594471012_2_alg».proof.Proof.LibKeepdims
import Idealize.ShloMosaic.Lib.StableHlo.Run
import Idealize.ShloMosaic.Lib.IdealHost
import Idealize.ShloMosaic.Lib.Pipeline.Value
import Idealize.ShloMosaic.PureOps.Ideal.Laws

noncomputable section

open scoped BigOperators

namespace Cert.KernelIdeal.HostPrefix

open Cert.KernelIdeal Cert.KernelIdeal.Gen Idealize.ShloMosaic Idealize.ShloMosaic.TcCoe Idealize.SL.Sem
open Idealize.ShloMosaic.ValueIdx Cert.Gcn Cert.Lib.RowIndex

/-! ## The operations as functions of the argument arrays -/

/-- The first row of the edge-index argument as a flat array of words (the edges' sources). -/
def pRow (a6 : IVec S2x600000 32) : IVec S600000 32 := fun i =>
  shapeCast S600000 (extractStridedSlice S1x600000 ![0, 0] a6 slices_S2x600000_S1x600000_0_0) shapeCasts_S1x600000_S600000 i

/-- The second row of the edge-index argument as a flat array of words (the edges' destinations). -/
def pCol (a6 : IVec S2x600000 32) : IVec S600000 32 := fun i =>
  shapeCast S600000 (extractStridedSlice S1x600000 ![1, 0] a6 slices_S2x600000_S1x600000_1_0) shapeCasts_S1x600000_S600000 i

/-- A flat array of index words as the one-column array a scatter or a gather takes. -/
def asIdx (v : IVec S600000 32) : IVec S600000x1 32 := broadcastInDim S600000x1 ![0] bcast_S600000_S600000x1_0 v

/-- The edge attributes scattered into zeros along the destinations. -/
def pAgg (a6 : IVec S2x600000 32) (a1 : FVec Ideal S600000x16 .f32) : FVec Ideal S50000x16 .f32 :=
  Host.scatterAdd scatter_S50000x16_S600000x1_S600000x16_1_0_0_1
    (broadcastInDim S50000x16 ![] bcast_S_S50000x16 (constant (F := Ideal) S_ .f32 0x00000000#32))
    (asIdx (pCol a6)) a1

/-- Ones scattered into zeros along the destinations: the in-degrees. -/
def pCnt (a6 : IVec S2x600000 32) : FVec Ideal S50000 .f32 :=
  Host.scatterAdd scatter_S50000_S600000x1_S600000_n_0_0_1
    (broadcastInDim S50000 ![] bcast_S_S50000 (constant (F := Ideal) S_ .f32 0x00000000#32))
    (asIdx (pCol a6))
    (broadcastInDim S600000 ![] bcast_S_S600000 (constant (F := Ideal) S_ .f32 0x3F800000#32))

/-- The in-degrees as a column. -/
def pCntCol (a6 : IVec S2x600000 32) : FVec Ideal S50000x1 .f32 := fun i =>
  shapeCast S50000x1 (pCnt a6) shapeCasts_S50000_S50000x1 i

/-- `(in-degree + 1) ^ (-1/2)` as a column. -/
def pDisCol (a6 : IVec S2x600000 32) : FVec Ideal S50000x1 .f32 := fun i =>
  shapeCast S50000x1
    (Host.rsqrt (addf (pCnt a6) (broadcastInDim S50000 ![] bcast_S_S50000 (constant (F := Ideal) S_ .f32 0x3F800000#32))))
    shapeCasts_S50000_S50000x1 i

/-! ## Each read at an index -/

/-- The source words are row 0 of the edge-index argument. -/
theorem pRow_apply (a6 : IVec S2x600000 32) (e : Fin 600000) : pRow a6 (ix1 e) = a6 (ix2 (0 : Fin 2) e) := by
  unfold pRow
  refine (shapeCast_apply _ shapeCasts_S1x600000_S600000 (ix1 e) (ix2 (0 : Fin 1) e) ?_).trans ?_
  · rw [Shape.rowMajor_val_two, Shape.rowMajor_val_one]
    show (0 : Nat) * 600000 + e.val = e.val
    omega
  · refine extractStridedSlice_apply _ a6 slices_S2x600000_S1x600000_0_0 (ix2 (0 : Fin 1) e) (ix2 (0 : Fin 2) e) fun a => ?_
    match a with
    | ⟨0, _⟩ => rfl
    | ⟨1, _⟩ => show e.val = 0 + e.val; omega

/-- The destination words are row 1 of the edge-index argument. -/
theorem pCol_apply (a6 : IVec S2x600000 32) (e : Fin 600000) : pCol a6 (ix1 e) = a6 (ix2 (1 : Fin 2) e) := by
  unfold pCol
  refine (shapeCast_apply _ shapeCasts_S1x600000_S600000 (ix1 e) (ix2 (0 : Fin 1) e) ?_).trans ?_
  · rw [Shape.rowMajor_val_two, Shape.rowMajor_val_one]
    show (0 : Nat) * 600000 + e.val = e.val
    omega
  · refine extractStridedSlice_apply _ a6 slices_S2x600000_S1x600000_1_0 (ix2 (0 : Fin 1) e) (ix2 (1 : Fin 2) e) fun a => ?_
    match a with
    | ⟨0, _⟩ => rfl
    | ⟨1, _⟩ => show e.val = 0 + e.val; omega

/-- The one-column index array holds the flat array's words. -/
theorem asIdx_apply (v : IVec S600000 32) (e : Fin 600000) : asIdx v (ix2 e (0 : Fin 1)) = v (ix1 e) := by
  unfold asIdx
  refine broadcastInDim_apply _ bcast_S600000_S600000x1_0 v (ix2 e (0 : Fin 1)) (ix1 e) fun a => ?_
  match a with
  | ⟨0, _⟩ => rfl

/-- A broadcast zero word is the extended real zero. -/
theorem zero16_apply (i : S50000x16.Idx) :
    (broadcastInDim S50000x16 ![] bcast_S_S50000x16 (constant (F := Ideal) S_ .f32 0x00000000#32) : FVec Ideal S50000x16 .f32) i
      = (0 : EReal) := by
  show Ideal.ofBits .f32 0x00000000#32 = 0
  exact Ideal.ofBits_zero_f32

/-- The landing sets along the one-column index array are the landing sets of the destination words. -/
theorem filter_asIdx_pCol (a6 : IVec S2x600000 32) (n : Fin 50000) :
    Finset.univ.filter (fun e : Fin 600000 => land 50000 (asIdx (pCol a6) (ix2 e (0 : Fin 1))) = some n)
      = Lands (fun e => a6 (ix2 (1 : Fin 2) e)) n := by
  unfold Lands
  exact Finset.filter_congr fun e _ => by rw [asIdx_apply, pCol_apply]

/-- The scattered attributes at node `n`, attribute `k`: the attributes of the edges landing on `n`, summed. -/
theorem pAgg_apply (a6 : IVec S2x600000 32) (a1 : FVec Ideal S600000x16 .f32) (n : Fin 50000) (k : Fin 16) :
    pAgg a6 a1 (ix2 n k) = eaAgg (mat a1) (fun e => a6 (ix2 (1 : Fin 2) e)) n k := by
  unfold pAgg
  refine (scatterAdd_rows_apply (N := 50000) (E := 600000) (C := 16) (w := 32) (φ := .f32)
    scatter_S50000x16_S600000x1_S600000x16_1_0_0_1_wf _ (asIdx (pCol a6)) a1 n k).trans ?_
  rw [zero16_apply, filter_asIdx_pCol]
  rfl

/-- The in-degree of node `n`: one for every edge landing on `n`. -/
theorem pCnt_apply (a6 : IVec S2x600000 32) (n : Fin 50000) :
    pCnt a6 (ix1 n) = cnt (fun e => a6 (ix2 (1 : Fin 2) e)) n := by
  unfold pCnt
  refine (scatterAdd_vec_apply (N := 50000) (E := 600000) (w := 32) (φ := .f32)
    scatter_S50000_S600000x1_S600000_n_0_0_1_wf _ (asIdx (pCol a6)) _ n).trans ?_
  rw [filter_asIdx_pCol]
  show (Ideal.ofBits .f32 0x00000000#32 + ∑ e ∈ Lands (fun e => a6 (ix2 (1 : Fin 2) e)) n, Ideal.ofBits .f32 0x3F800000#32 : EReal)
    = 0 + ∑ e ∈ Lands (fun e => a6 (ix2 (1 : Fin 2) e)) n, (1 : EReal)
  rw [Ideal.ofBits_zero_f32, Ideal.ofBits_one_f32]

/-- The in-degree column at node `n`. -/
theorem pCntCol_apply (a6 : IVec S2x600000 32) (n : Fin 50000) :
    pCntCol a6 (ix2 n (0 : Fin 1)) = cnt (fun e => a6 (ix2 (1 : Fin 2) e)) n :=
  (Cert.Keepdims.shapeCast_a_a1_apply (pCnt a6) shapeCasts_S50000_S50000x1 n 0).trans (pCnt_apply a6 n)

/-- The normalisation column at node `n`. -/
theorem pDisCol_apply (a6 : IVec S2x600000 32) (n : Fin 50000) :
    pDisCol a6 (ix2 n (0 : Fin 1)) = disF (fun e => a6 (ix2 (1 : Fin 2) e)) n := by
  refine (Cert.Keepdims.shapeCast_a_a1_apply _ shapeCasts_S50000_S50000x1 n 0).trans ?_
  have hr : ∀ (x : FVec Ideal S50000 .f32) (i : S50000.Idx), Host.rsqrt x i = Ideal.rsqrt (x i) := fun _ _ => rfl
  have hone : (broadcastInDim S50000 ![] bcast_S_S50000 (constant (F := Ideal) S_ .f32 0x3F800000#32) : FVec Ideal S50000 .f32) (ix1 n)
      = (1 : EReal) := by
    show Ideal.ofBits .f32 0x3F800000#32 = 1
    exact Ideal.ofBits_one_f32
  rw [hr, addf_apply, pCnt_apply, hone]
  rfl

/-- A transposed matrix at `(i, j)` is the matrix at `(j, i)`. -/
theorem transpose_WeT_apply (a2 : FVec Ideal S128x16 .f32) (k : Fin 16) (d : Fin 128) :
    transpose S16x128 [1, 0] a2 transposes_S128x16_S16x128_1_0 (ix2 k d) = a2 (ix2 d k) :=
  transpose_apply [1, 0] a2 transposes_S128x16_S16x128_1_0 (ix2 k d) (ix2 d k) fun b =>
    match b with
    | ⟨0, _⟩ => rfl
    | ⟨1, _⟩ => rfl

theorem transpose_WcT_apply (a4 : FVec Ideal S128x128 .f32) (d h : Fin 128) :
    transpose S128x128 [1, 0] a4 transposes_S128x128_S128x128_1_0 (ix2 d h) = a4 (ix2 h d) :=
  transpose_apply [1, 0] a4 transposes_S128x128_S128x128_1_0 (ix2 d h) (ix2 h d) fun b =>
    match b with
    | ⟨0, _⟩ => rfl
    | ⟨1, _⟩ => rfl

/-- A vector laid out as one row, at `(0, d)`. -/
theorem asRow_apply (a : FVec Ideal S128 .f32) (d : Fin 128) :
    shapeCast S1x128 a shapeCasts_S128_S1x128 (ix2 (0 : Fin 1) d) = a (ix1 d) :=
  shapeCast_apply a shapeCasts_S128_S1x128 (ix2 (0 : Fin 1) d) (ix1 d) (by
    rw [Shape.rowMajor_val_two, Shape.rowMajor_val_one]
    show d.val = (0 : Nat) * 128 + d.val
    omega)

/-! ## The buffers at the first kernel's entry -/

variable (m : (ℓ : Loc nD τ sig) → Buf (Elt Ideal) ℓ) (ρ : Dev nD → PrngReg)

theorem W1_v1 (c : Dev nD) :
    (W1 m ρ c (Proc.devRef .tc main_v1) : IVec S600000 32) = pRow (m ((c.tc : Thread nD τ).loc main_arg6)) := by
  show StableHlo.after hostOps0 (W0 m ρ c) (Proc.devRef .tc main_v1) = _
  after_results_simp
  rfl

theorem W1_v3 (c : Dev nD) :
    (W1 m ρ c (Proc.devRef .tc main_v3) : IVec S600000 32) = pCol (m ((c.tc : Thread nD τ).loc main_arg6)) := by
  show StableHlo.after hostOps0 (W0 m ρ c) (Proc.devRef .tc main_v3) = _
  after_results_simp
  rfl

theorem W1_v6 (c : Dev nD) :
    (W1 m ρ c (Proc.devRef .tc main_v6) : FVec Ideal S50000x16 .f32)
      = pAgg (m ((c.tc : Thread nD τ).loc main_arg6)) (m ((c.tc : Thread nD τ).loc main_arg1)) := by
  show StableHlo.after hostOps0 (W0 m ρ c) (Proc.devRef .tc main_v6) = _
  after_results_simp
  rfl

theorem W1_v14 (c : Dev nD) :
    (W1 m ρ c (Proc.devRef .tc main_v14) : FVec Ideal S50000x1 .f32) = pCntCol (m ((c.tc : Thread nD τ).loc main_arg6)) := by
  show StableHlo.after hostOps0 (W0 m ρ c) (Proc.devRef .tc main_v14) = _
  after_results_simp
  rfl

theorem W1_v15 (c : Dev nD) :
    (W1 m ρ c (Proc.devRef .tc main_v15) : FVec Ideal S50000x1 .f32) = pDisCol (m ((c.tc : Thread nD τ).loc main_arg6)) := by
  show StableHlo.after hostOps0 (W0 m ρ c) (Proc.devRef .tc main_v15) = _
  after_results_simp
  rfl

theorem W1_v16 (c : Dev nD) :
    (W1 m ρ c (Proc.devRef .tc main_v16) : FVec Ideal S16x128 .f32)
      = transpose S16x128 [1, 0] (m ((c.tc : Thread nD τ).loc main_arg2) : FVec Ideal S128x16 .f32) transposes_S128x16_S16x128_1_0 := by
  show StableHlo.after hostOps0 (W0 m ρ c) (Proc.devRef .tc main_v16) = _
  after_results_simp

theorem W1_v17 (c : Dev nD) :
    (W1 m ρ c (Proc.devRef .tc main_v17) : FVec Ideal S128x128 .f32)
      = transpose S128x128 [1, 0] (m ((c.tc : Thread nD τ).loc main_arg4) : FVec Ideal S128x128 .f32) transposes_S128x128_S128x128_1_0 := by
  show StableHlo.after hostOps0 (W0 m ρ c) (Proc.devRef .tc main_v17) = _
  after_results_simp

theorem W1_v18 (c : Dev nD) :
    (W1 m ρ c (Proc.devRef .tc main_v18) : FVec Ideal S1x128 .f32)
      = fun i => shapeCast S1x128 (m ((c.tc : Thread nD τ).loc main_arg3) : FVec Ideal S128 .f32) shapeCasts_S128_S1x128 i := by
  show StableHlo.after hostOps0 (W0 m ρ c) (Proc.devRef .tc main_v18) = _
  after_results_simp
  rfl

theorem W1_v19 (c : Dev nD) :
    (W1 m ρ c (Proc.devRef .tc main_v19) : FVec Ideal S1x128 .f32)
      = fun i => shapeCast S1x128 (m ((c.tc : Thread nD τ).loc main_arg5) : FVec Ideal S128 .f32) shapeCasts_S128_S1x128 i := by
  show StableHlo.after hostOps0 (W0 m ρ c) (Proc.devRef .tc main_v19) = _
  after_results_simp
  rfl

theorem W1_arg0 (c : Dev nD) :
    W1 m ρ c (Proc.devRef .tc main_arg0) = m ((c.tc : Thread nD τ).loc main_arg0) := by
  show StableHlo.after hostOps0 (W0 m ρ c) (Proc.devRef .tc main_arg0) = _
  after_results_simp

/-! ## The first kernel's entry arrays, as the terms of the tiled form -/

/-- The features are the first argument. -/
theorem V1_feat (c : Dev nD) :
    mat (V1 m ρ c main_arg0 : FVec Ideal S50000x128 .f32)
      = mat (m ((c.tc : Thread nD τ).loc main_arg0) : FVec Ideal S50000x128 .f32) := by
  funext n d
  exact congrFun (W1_arg0 m ρ c) (ix2 n d)

/-- The summed attributes. -/
theorem V1_agg (c : Dev nD) :
    mat (V1 m ρ c main_v6 : FVec Ideal S50000x16 .f32)
      = eaAgg (mat (m ((c.tc : Thread nD τ).loc main_arg1) : FVec Ideal S600000x16 .f32))
          (fun e => (m ((c.tc : Thread nD τ).loc main_arg6) : IVec S2x600000 32) (ix2 (1 : Fin 2) e)) := by
  funext n k
  exact (congrFun (W1_v6 m ρ c) (ix2 n k)).trans (pAgg_apply _ _ n k)

/-- The in-degrees. -/
theorem V1_cnt (c : Dev nD) :
    (fun n => (V1 m ρ c main_v14 : FVec Ideal S50000x1 .f32) (ix2 n (0 : Fin 1)))
      = cnt (fun e => (m ((c.tc : Thread nD τ).loc main_arg6) : IVec S2x600000 32) (ix2 (1 : Fin 2) e)) := by
  funext n
  exact (congrFun (W1_v14 m ρ c) (ix2 n (0 : Fin 1))).trans (pCntCol_apply _ n)

/-- The normalisation. -/
theorem V1_dis (c : Dev nD) :
    (fun n => (V1 m ρ c main_v15 : FVec Ideal S50000x1 .f32) (ix2 n (0 : Fin 1)))
      = disF (fun e => (m ((c.tc : Thread nD τ).loc main_arg6) : IVec S2x600000 32) (ix2 (1 : Fin 2) e)) := by
  funext n
  exact (congrFun (W1_v15 m ρ c) (ix2 n (0 : Fin 1))).trans (pDisCol_apply _ n)

/-- The edge weights, transposed. -/
theorem V1_WeT (c : Dev nD) :
    mat (V1 m ρ c main_v16 : FVec Ideal S16x128 .f32)
      = fun k d => mat (m ((c.tc : Thread nD τ).loc main_arg2) : FVec Ideal S128x16 .f32) d k := by
  funext k d
  exact (congrFun (W1_v16 m ρ c) (ix2 k d)).trans (transpose_WeT_apply _ k d)

/-- The edge bias as a row. -/
theorem V1_be (c : Dev nD) :
    (fun d => (V1 m ρ c main_v18 : FVec Ideal S1x128 .f32) (ix2 (0 : Fin 1) d))
      = vec (m ((c.tc : Thread nD τ).loc main_arg3) : FVec Ideal S128 .f32) := by
  funext d
  exact (congrFun (W1_v18 m ρ c) (ix2 (0 : Fin 1) d)).trans (asRow_apply _ d)

/-- The convolution weights, transposed. -/
theorem V1_WcT (c : Dev nD) :
    mat (V1 m ρ c main_v17 : FVec Ideal S128x128 .f32)
      = fun d h => mat (m ((c.tc : Thread nD τ).loc main_arg4) : FVec Ideal S128x128 .f32) h d := by
  funext d h
  exact (congrFun (W1_v17 m ρ c) (ix2 d h)).trans (transpose_WcT_apply _ d h)

/-- The convolution bias as a row, at `(0, d)`. -/
theorem W1_bc_apply (c : Dev nD) (d : Fin 128) :
    (W1 m ρ c (Proc.devRef .tc main_v19) : FVec Ideal S1x128 .f32) (ix2 (0 : Fin 1) d)
      = vec (m ((c.tc : Thread nD τ).loc main_arg5) : FVec Ideal S128 .f32) d :=
  (congrFun (W1_v19 m ρ c) (ix2 (0 : Fin 1) d)).trans (asRow_apply _ d)

/-- The normalisation column, at node `n`. -/
theorem W1_dis_apply (c : Dev nD) (n : Fin 50000) :
    (W1 m ρ c (Proc.devRef .tc main_v15) : FVec Ideal S50000x1 .f32) (ix2 n (0 : Fin 1))
      = disF (fun e => (m ((c.tc : Thread nD τ).loc main_arg6) : IVec S2x600000 32) (ix2 (1 : Fin 2) e)) n :=
  (congrFun (W1_v15 m ρ c) (ix2 n (0 : Fin 1))).trans (pDisCol_apply _ n)

/-- The source words, at edge `e`. -/
theorem W1_row_apply (c : Dev nD) (e : Fin 600000) :
    (W1 m ρ c (Proc.devRef .tc main_v1) : IVec S600000 32) (ix1 e)
      = (m ((c.tc : Thread nD τ).loc main_arg6) : IVec S2x600000 32) (ix2 (0 : Fin 2) e) :=
  (congrFun (W1_v1 m ρ c) (ix1 e)).trans (pRow_apply _ e)

/-- The destination words, at edge `e`. -/
theorem W1_col_apply (c : Dev nD) (e : Fin 600000) :
    (W1 m ρ c (Proc.devRef .tc main_v3) : IVec S600000 32) (ix1 e)
      = (m ((c.tc : Thread nD τ).loc main_arg6) : IVec S2x600000 32) (ix2 (1 : Fin 2) e) :=
  (congrFun (W1_v3 m ρ c) (ix1 e)).trans (pCol_apply _ e)

end Cert.KernelIdeal.HostPrefix

end
-- ==== Proof.KernelValueMid.lean ====
/-
  The host operations between the two kernels, and the buffers at the second kernel's entry.

  Between the kernels the host normalises the source words as jnp does (a negative word counts from the end), gathers the
  first kernel's rows at them, and scatters the gathered rows into zeros along the destination words: the messages summed
  into their destination nodes. The other three arrays the second kernel reads — the first kernel's result, the
  normalisation column and the bias row — pass through unchanged.
-/
import proofs.«148007_j53257594471012_2_alg».proof.Proof.KernelValuePrefix
import proofs.«148007_j53257594471012_2_alg».proof.Proof.Region0

noncomputable section

open scoped BigOperators

namespace Cert.KernelIdeal.HostMid

open Cert.KernelIdeal Cert.KernelIdeal.Gen Idealize.ShloMosaic Idealize.ShloMosaic.TcCoe Idealize.SL.Sem
open Idealize.ShloMosaic.ValueIdx Cert.Gcn Cert.Lib.RowIndex Cert.KernelIdeal.HostPrefix

/-! ## The message scatter as a function of arrays -/

/-- The source words normalised as jnp normalises a gather's indices, as a one-column index array. -/
def pSrcIdx (r : IVec S600000 32) : IVec S600000x1 32 :=
  asIdx (select (cmpi .slt r (broadcastInDim S600000 ![] bcast_S_S600000 (constantI S_ 32 0#32)))
    (addi r (broadcastInDim S600000 ![] bcast_S_S600000 (constantI S_ 32 50000#32))) r)

/-- The rows of `y` gathered at the sources and scattered into zeros along the destinations. -/
def pMsg (y : FVec Ideal S50000x128 .f32) (r cl : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32))
    (asIdx cl)
    (Host.gather gather_S50000x128_S600000x1_S600000x128_1_0_n_n_0_1_1128 y (pSrcIdx r))

/-- The normalised source word of edge `e`. -/
theorem pSrcIdx_apply (r : IVec S600000 32) (e : Fin 600000) : pSrcIdx r (ix2 e (0 : Fin 1)) = wrapWord (r (ix1 e)) := by
  unfold pSrcIdx
  exact asIdx_apply _ e

/-- The gathered row of edge `e`: the row of `y` at the edge's source. -/
theorem gathered_apply (y : FVec Ideal S50000x128 .f32) (r : IVec S600000 32) (e : Fin 600000) (h : Fin 128) :
    Host.gather gather_S50000x128_S600000x1_S600000x128_1_0_n_n_0_1_1128 y (pSrcIdx r) (ix2 e h)
      = y (ix2 (src (r (ix1 e))) h) := by
  refine (gather_rows_apply (α := EReal) (N := 50000) (E := 600000) (C := 128) (w := 32) (by decide)
    gather_S50000x128_S600000x1_S600000x128_1_0_n_n_0_1_1128_wf y (pSrcIdx r) e h).trans ?_
  rw [pSrcIdx_apply]
  rfl

/-- The message scatter at node `n`, feature `h`: the rows at the sources of the edges landing on `n`, summed. -/
theorem pMsg_apply (y : FVec Ideal S50000x128 .f32) (r cl : IVec S600000 32) (n : Fin 50000) (h : Fin 128) :
    pMsg y r cl (ix2 n h)
      = segSum (fun e => cl (ix1 e)) (fun e => y (ix2 (src (r (ix1 e))) h)) n := by
  unfold pMsg
  refine (scatterAdd_rows_apply (N := 50000) (E := 600000) (C := 128) (w := 32) (φ := .f32)
    scatter_S50000x128_S600000x1_S600000x128_1_0_0_1_wf _ (asIdx cl) _ n h).trans ?_
  have hz : (broadcastInDim S50000x128 ![] bcast_S_S50000x128 (constant (F := Ideal) S_ .f32 0x00000000#32)
      : FVec Ideal S50000x128 .f32) (ix2 n h) = (0 : EReal) := by
    show Ideal.ofBits .f32 0x00000000#32 = 0
    exact Ideal.ofBits_zero_f32
  have hf : Finset.univ.filter (fun e : Fin 600000 => land 50000 (asIdx cl (ix2 e (0 : Fin 1))) = some n)
      = Lands (fun e => cl (ix1 e)) n := by
    unfold Lands
    exact Finset.filter_congr fun e _ => by rw [asIdx_apply]
  rw [hz, hf]
  unfold segSum
  exact congrArg (fun t : EReal => 0 + t) (Finset.sum_congr rfl fun e _ => gathered_apply y r e h)

/-! ## The buffers at the second kernel's entry -/

variable (m : (ℓ : Loc nD τ sig) → Buf (Elt Ideal) ℓ) (ρ : Dev nD → PrngReg)

/-- The message buffer is the message scatter of the first kernel's result and the two word arrays. -/
theorem W3_v30 (c : Dev nD) :
    (W3 m ρ c (Proc.devRef .tc main_v30) : FVec Ideal S50000x128 .f32)
      = pMsg (W2 m ρ c (Proc.devRef .tc main_v20)) (W2 m ρ c (Proc.devRef .tc main_v1)) (W2 m ρ c (Proc.devRef .tc main_v3)) := by
  show StableHlo.after hostOps1 (W2 m ρ c) (Proc.devRef .tc main_v30) = _
  after_results_simp
  rfl

theorem W3_v20 (c : Dev nD) : W3 m ρ c (Proc.devRef .tc main_v20) = W2 m ρ c (Proc.devRef .tc main_v20) := by
  show StableHlo.after hostOps1 (W2 m ρ c) (Proc.devRef .tc main_v20) = _
  after_results_simp

theorem W3_v15 (c : Dev nD) : W3 m ρ c (Proc.devRef .tc main_v15) = W2 m ρ c (Proc.devRef .tc main_v15) := by
  show StableHlo.after hostOps1 (W2 m ρ c) (Proc.devRef .tc main_v15) = _
  after_results_simp

theorem W3_v19 (c : Dev nD) : W3 m ρ c (Proc.devRef .tc main_v19) = W2 m ρ c (Proc.devRef .tc main_v19) := by
  show StableHlo.after hostOps1 (W2 m ρ c) (Proc.devRef .tc main_v19) = _
  after_results_simp

/-! ## The buffers at the first kernel's exit -/

theorem W2_v1 (c : Dev nD) : W2 m ρ c (Proc.devRef .tc main_v1) = W1 m ρ c (Proc.devRef .tc main_v1) :=
  W2_of_ne m ρ c main_v1 (by decide)

theorem W2_v3 (c : Dev nD) : W2 m ρ c (Proc.devRef .tc main_v3) = W1 m ρ c (Proc.devRef .tc main_v3) :=
  W2_of_ne m ρ c main_v3 (by decide)

theorem W2_v19 (c : Dev nD) : W2 m ρ c (Proc.devRef .tc main_v19) = W1 m ρ c (Proc.devRef .tc main_v19) :=
  W2_of_ne m ρ c main_v19 (by decide)

/-- The normalisation column is an input of the first kernel: it leaves it as it entered. -/
theorem W2_v15 (c : Dev nD) : W2 m ρ c (Proc.devRef .tc main_v15) = W1 m ρ c (Proc.devRef .tc main_v15) :=
  (W2_arr m ρ c 3).trans (((dat0 (V1 m ρ) c).arrAt_in 3 rfl _).trans (A_eq0 (V1 m ρ) c 3))

/-! ## The launch arguments as plain functions -/

/-- The node features. -/
abbrev argX (c : Dev nD) : Fin 50000 → Fin 128 → EReal := mat (m ((c.tc : Thread nD τ).loc main_arg0) : FVec Ideal S50000x128 .f32)
/-- The edge attributes. -/
abbrev argA (c : Dev nD) : Fin 600000 → Fin 16 → EReal := mat (m ((c.tc : Thread nD τ).loc main_arg1) : FVec Ideal S600000x16 .f32)
/-- The edge weights. -/
abbrev argWe (c : Dev nD) : Fin 128 → Fin 16 → EReal := mat (m ((c.tc : Thread nD τ).loc main_arg2) : FVec Ideal S128x16 .f32)
/-- The edge bias. -/
abbrev argBe (c : Dev nD) : Fin 128 → EReal := vec (m ((c.tc : Thread nD τ).loc main_arg3) : FVec Ideal S128 .f32)
/-- The convolution weights. -/
abbrev argWc (c : Dev nD) : Fin 128 → Fin 128 → EReal := mat (m ((c.tc : Thread nD τ).loc main_arg4) : FVec Ideal S128x128 .f32)
/-- The convolution bias. -/
abbrev argBc (c : Dev nD) : Fin 128 → EReal := vec (m ((c.tc : Thread nD τ).loc main_arg5) : FVec Ideal S128 .f32)
/-- The source words. -/
abbrev argRow (c : Dev nD) : Fin 600000 → BitVec 32 := fun e => (m ((c.tc : Thread nD τ).loc main_arg6) : IVec S2x600000 32) (ix2 (0 : Fin 2) e)
/-- The destination words. -/
abbrev argCol (c : Dev nD) : Fin 600000 → BitVec 32 := fun e => (m ((c.tc : Thread nD τ).loc main_arg6) : IVec S2x600000 32) (ix2 (1 : Fin 2) e)

/-! ## The second kernel's entry arrays, as the terms of the tiled form -/

/-- The first kernel's result, at its exit: the scaled convolved features of the arguments. -/
theorem W2_y_apply (c : Dev nD) (n : Fin 50000) (h : Fin 128) :
    (W2 m ρ c (Proc.devRef .tc main_v20) : FVec Ideal S50000x128 .f32) (ix2 n h)
      = yScaled (argX m c) (argA m c) (argWe m c) (argBe m c) (argWc m c) (argCol m c) n h := by
  have e : (W2 m ρ c (Proc.devRef .tc main_v20) : FVec Ideal S50000x128 .f32)
      = ((dat0 (F := Ideal) (V1 m ρ) c).arrAt 7 cfg0.N : FVec Ideal S50000x128 .f32) := W2_arr m ρ c 7
  refine (congrFun e (ix2 n h)).trans ?_
  refine (Region0.final0_apply (V1 m ρ) c n h).trans ?_
  rw [V1_feat, V1_agg, V1_cnt, V1_dis, V1_WeT, V1_be, V1_WcT]
  rfl

/-- The first kernel's result, at the second kernel's entry. -/
theorem V3_y (c : Dev nD) :
    mat (V3 m ρ c main_v20 : FVec Ideal S50000x128 .f32)
      = yScaled (argX m c) (argA m c) (argWe m c) (argBe m c) (argWc m c) (argCol m c) := by
  funext n h
  exact (congrFun (W3_v20 m ρ c) (ix2 n h)).trans (W2_y_apply m ρ c n h)

/-- The normalisation column, at the second kernel's entry. -/
theorem V3_dis (c : Dev nD) :
    (fun n => (V3 m ρ c main_v15 : FVec Ideal S50000x1 .f32) (ix2 n (0 : Fin 1))) = disF (argCol m c) := by
  funext n
  exact (congrFun (W3_v15 m ρ c) (ix2 n (0 : Fin 1))).trans
    ((congrFun (W2_v15 m ρ c) (ix2 n (0 : Fin 1))).trans (W1_dis_apply m ρ c n))

/-- The bias row, at the second kernel's entry. -/
theorem V3_bc (c : Dev nD) :
    (fun d => (V3 m ρ c main_v19 : FVec Ideal S1x128 .f32) (ix2 (0 : Fin 1) d)) = argBc m c := by
  funext d
  exact (congrFun (W3_v19 m ρ c) (ix2 (0 : Fin 1) d)).trans
    ((congrFun (W2_v19 m ρ c) (ix2 (0 : Fin 1) d)).trans (W1_bc_apply m ρ c d))

/-- The message buffer, at the second kernel's entry. -/
theorem V3_msg (c : Dev nD) :
    mat (V3 m ρ c main_v30 : FVec Ideal S50000x128 .f32)
      = scatF (argX m c) (argA m c) (argWe m c) (argBe m c) (argWc m c) (argRow m c) (argCol m c) := by
  funext n h
  refine (congrFun (W3_v30 m ρ c) (ix2 n h)).trans ?_
  refine (pMsg_apply _ _ _ n h).trans ?_
  have hc : (fun e => (W2 m ρ c (Proc.devRef .tc main_v3) : IVec S600000 32) (ix1 e)) = argCol m c :=
    funext fun e => (congrFun (W2_v3 m ρ c) (ix1 e)).trans (W1_col_apply m ρ c e)
  have hr : ∀ e : Fin 600000, (W2 m ρ c (Proc.devRef .tc main_v1) : IVec S600000 32) (ix1 e) = argRow m c e :=
    fun e => (congrFun (W2_v1 m ρ c) (ix1 e)).trans (W1_row_apply m ρ c e)
  have hy : (fun e : Fin 600000 => (W2 m ρ c (Proc.devRef .tc main_v20) : FVec Ideal S50000x128 .f32)
        (ix2 (src ((W2 m ρ c (Proc.devRef .tc main_v1) : IVec S600000 32) (ix1 e))) h))
      = fun e => yScaled (argX m c) (argA m c) (argWe m c) (argBe m c) (argWc m c) (argCol m c) (src (argRow m c e)) h :=
    funext fun e => by rw [hr e]; exact W2_y_apply m ρ c _ h
  rw [hc, hy]
  rfl

end Cert.KernelIdeal.HostMid

end
-- ==== Proof.KernelValue.lean ====
/-
  The tiled program's result, read back through the segment boundaries, is the tiled form of the graph convolution.

  The last boundary's contents at the result buffer are what the second region leaves: `finalCombine` of the region's
  entry arrays (Proof/Region1.lean). Those are the message scatter (a scatter-add into zeros of the gathered rows of the first
  kernel's result), the first kernel's result itself (`nodeFused` of ITS entry arrays, Proof/Region0.lean), the dis column and
  the bias row; and the first region's entry arrays are the features, the scatter-add of the edge attributes, the in-degree
  column, the dis column and the transposed weights, all computed by the host operations before it from the arguments.
-/
import proofs.«148007_j53257594471012_2_alg».proof.Proof.KernelRun
import proofs.«148007_j53257594471012_2_alg».proof.Proof.Region0
import proofs.«148007_j53257594471012_2_alg».proof.Proof.Region1
import proofs.«148007_j53257594471012_2_alg».proof.Proof.Spec
import proofs.«148007_j53257594471012_2_alg».proof.Proof.KernelValueMid
import Idealize.ShloMosaic.Lib.StableHlo.Run
import Idealize.ShloMosaic.Lib.IdealHost

noncomputable section

open scoped BigOperators

namespace Cert.KernelIdeal.RunValue

open Cert.KernelIdeal Cert.KernelIdeal.Gen Idealize.ShloMosaic Idealize.ShloMosaic.TcCoe Idealize.SL.Sem
open Idealize.ShloMosaic.ValueIdx Cert.Gcn

variable (m : (ℓ : Loc nD τ sig) → Buf (Elt Ideal) ℓ) (ρ : Dev nD → PrngReg)

/-- The result buffer at the last boundary, at node `n` and feature `h`: the tiled form of the launch arguments. -/
theorem W4_result (c : Dev nD) (n : Fin 50000) (h : Fin 128) :
    (W4 m ρ c (Proc.devRef .tc main_v31) : FVec Ideal S50000x128 .f32) (ix2 n h)
      = outFused (mat (m ((c.tc : Thread nD τ).loc main_arg0) : FVec Ideal S50000x128 .f32))
          (mat (m ((c.tc : Thread nD τ).loc main_arg1) : FVec Ideal S600000x16 .f32))
          (mat (m ((c.tc : Thread nD τ).loc main_arg2) : FVec Ideal S128x16 .f32))
          (vec (m ((c.tc : Thread nD τ).loc main_arg3) : FVec Ideal S128 .f32))
          (mat (m ((c.tc : Thread nD τ).loc main_arg4) : FVec Ideal S128x128 .f32))
          (vec (m ((c.tc : Thread nD τ).loc main_arg5) : FVec Ideal S128 .f32))
          (fun e => (m ((c.tc : Thread nD τ).loc main_arg6) : IVec S2x600000 32) (ix2 (0 : Fin 2) e))
          (fun e => (m ((c.tc : Thread nD τ).loc main_arg6) : IVec S2x600000 32) (ix2 (1 : Fin 2) e)) n h := by
  have e4 : (W4 m ρ c (Proc.devRef .tc main_v31) : FVec Ideal S50000x128 .f32)
      = ((dat1 (F := Ideal) (V3 m ρ) c).arrAt 4 cfg1.N : FVec Ideal S50000x128 .f32) := W4_arr m ρ c 4
  refine (congrFun e4 (ix2 n h)).trans ?_
  refine (Region1.final1_apply (V3 m ρ) c n h).trans ?_
  rw [HostMid.V3_msg, HostMid.V3_y, HostMid.V3_dis, HostMid.V3_bc]
  rfl

end Cert.KernelIdeal.RunValue

end
-- ==== Proof.RefValueStages.lean ====
/-
  The plain program read one stage at a time: each stage at an index is the matching term of the plain form.
-/
import proofs.«148007_j53257594471012_2_alg».proof.Proof.RefRead
import proofs.«148007_j53257594471012_2_alg».proof.Proof.Spec
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Gcn Cert.ReferenceIdeal.ReadP Cert.Lib.RowIndex

/-! ## The dimension records are the row and vector records -/

theorem scatRows_eq : scatter_S50000x128_S600000x1_S600000x128_1_0_0_1
    = rowScatter 50000 600000 128 Facts₀.scatter_S50000x128_S600000x1_S600000x128_1_0_0_1_wf := rfl
theorem scatVec_eq : scatter_S50000_S600000x1_S600000_n_0_0_1
    = vecScatter 50000 600000 Facts₀.scatter_S50000_S600000x1_S600000_n_0_0_1_wf := rfl
theorem gathVec_eq : gather_S50000_S600000x1_S600000_n_0_n_n_0_1_1
    = vecGather 50000 600000 Facts₀.gather_S50000_S600000x1_S600000_n_0_n_n_0_1_1_wf := rfl
theorem gathRows_eq : gather_S50000x128_S600000x1_S600000x128_1_0_n_n_0_1_1128
    = rowGather 50000 600000 128 Facts₀.gather_S50000x128_S600000x1_S600000x128_1_0_n_n_0_1_1128_wf := rfl

section Stages

variable (x0 : FVec Ideal S50000x128 .f32) (x1 : FVec Ideal S600000x16 .f32) (x2 : FVec Ideal S128x16 .f32)
  (x3 : FVec Ideal S128 .f32) (x4 : FVec Ideal S128x128 .f32) (x5 : FVec Ideal S128 .f32) (x6 : IVec S2x600000 32)

/-- The `row` words. -/
abbrev rowW : Fin 600000 → BitVec 32 := fun e => x6 (ix2 (0 : Fin 2) e)
/-- The `col` words. -/
abbrev colW : Fin 600000 → BitVec 32 := fun e => x6 (ix2 (1 : Fin 2) e)

/-! ## The index words -/

theorem v1_at (e : Fin 600000) : val_main_v1 (F := Ideal) x6 (ix1 e) = x6 (ix2 (0 : Fin 2) e) := by
  refine (val_main_v1_apply (F := Ideal) x6 _).trans ((val_main_v0_apply (F := Ideal) x6 _).trans (congrArg x6 ?_))
  exact funext fun a => Fin.ext (by
    match a with
    | ⟨0, _⟩ => rfl
    | ⟨1, _⟩ => exact Nat.mod_eq_of_lt e.isLt)

theorem v3_at (e : Fin 600000) : val_main_v3 (F := Ideal) x6 (ix1 e) = x6 (ix2 (1 : Fin 2) e) := by
  refine (val_main_v3_apply (F := Ideal) x6 _).trans ((val_main_v2_apply (F := Ideal) x6 _).trans (congrArg x6 ?_))
  exact funext fun a => Fin.ext (by
    match a with
    | ⟨0, _⟩ => rfl
    | ⟨1, _⟩ => exact Nat.mod_eq_of_lt e.isLt)

theorem idx_col1 (e : Fin 600000) : idx_main_v10 (ix2 e (0 : Fin 1)) = ix1 e :=
  funext fun a => Fin.ext (by match a with | ⟨0, _⟩ => rfl)

theorem v10_at (e : Fin 600000) : val_main_v10 (F := Ideal) x6 (ix2 e (0 : Fin 1)) = x6 (ix2 (1 : Fin 2) e) :=
  (val_main_v10_apply (F := Ideal) x6 _).trans ((congrArg (val_main_v3 (F := Ideal) x6) (idx_col1 e)).trans (v3_at x6 e))

theorem v17_at (e : Fin 600000) : val_main_v17 (F := Ideal) x6 (ix2 e (0 : Fin 1)) = x6 (ix2 (1 : Fin 2) e) :=
  (val_main_v17_apply (F := Ideal) x6 _).trans ((congrArg (val_main_v3 (F := Ideal) x6) (idx_col1 e)).trans (v3_at x6 e))

theorem v51_at (e : Fin 600000) : val_main_v51 (F := Ideal) x6 (ix2 e (0 : Fin 1)) = x6 (ix2 (1 : Fin 2) e) :=
  (val_main_v51_apply (F := Ideal) x6 _).trans ((congrArg (val_main_v3 (F := Ideal) x6) (idx_col1 e)).trans (v3_at x6 e))

/-! ## The edge embeddings and their scatter -/

theorem v4_at (k : Fin 16) (d : Fin 128) : val_main_v4 (F := Ideal) x2 (ix2 k d) = x2 (ix2 d k) := by
  refine (val_main_v4_apply (F := Ideal) x2 _).trans (congrArg x2 ?_)
  exact funext fun a => Fin.ext (by match a with | ⟨0, _⟩ => rfl | ⟨1, _⟩ => rfl)

theorem v5_at (e : Fin 600000) (d : Fin 128) :
    val_main_v5 (F := Ideal) x1 x2 (ix2 e d) = ∑ k : Fin 16, x1 (ix2 e k) * x2 (ix2 d k) := by
  refine (val_main_v5_apply x1 x2 _).trans (Finset.sum_congr rfl fun k _ => ?_)
  have el : lidx_main_v5 (ix2 e d) k = ix2 e k :=
    funext fun a => Fin.ext (by match a with | ⟨0, _⟩ => rfl | ⟨1, _⟩ => rfl)
  have er : ridx_main_v5 (ix2 e d) k = ix2 k d :=
    funext fun a => Fin.ext (by match a with | ⟨0, _⟩ => rfl | ⟨1, _⟩ => rfl)
  exact (congrArg₂ (fun (a : EReal) (b : EReal) => a * b) (congrArg x1 el)
    ((congrArg (val_main_v4 (F := Ideal) x2) er).trans (v4_at x2 k d)))

theorem v7_at (e : Fin 600000) (d : Fin 128) : val_main_v7 (F := Ideal) x3 (ix2 e d) = x3 (ix1 d) := by
  refine (val_main_v7_apply (F := Ideal) x3 _).trans ((val_main_v6_apply (F := Ideal) x3 _).trans (congrArg x3 ?_))
  exact funext fun a => Fin.ext (by match a with | ⟨0, _⟩ => rfl)

theorem v8_at (e : Fin 600000) (d : Fin 128) :
    val_main_v8 (F := Ideal) x1 x2 x3 (ix2 e d) = emb (mat x1) (mat x2) (vec x3) e d := by
  refine (val_main_v8_apply (F := Ideal) x1 x2 x3 _).trans ?_
  rw [Ideal.addf_def, v5_at, v7_at]
  rfl

theorem v9_at (n : Fin 50000) (h : Fin 128) : val_main_v9 (F := Ideal) (ix2 n h) = (0 : EReal) := by
  refine (val_main_v9_apply (F := Ideal) _).trans ((val_main_cst_apply (F := Ideal) _).trans ?_)
  rw [Ideal.ofBits_def, Ideal.ofBits_zero_f32]

theorem v11_at (n : Fin 50000) (h : Fin 128) :
    val_main_v11 (F := Ideal) x1 x2 x3 x6 (ix2 n h)
      = segSum (colW x6) (fun e => emb (mat x1) (mat x2) (vec x3) e h) n := by
  unfold val_main_v11
  rw [scatRows_eq]
  refine (scatterAdd_rows_apply _ _ _ _ n h).trans ?_
  simp only [v9_at, v10_at, v8_at]
  rfl

theorem v12_at (n : Fin 50000) (d : Fin 128) :
    val_main_v12 (F := Ideal) x0 x1 x2 x3 x6 (ix2 n d) = xAgg (mat x0) (mat x1) (mat x2) (vec x3) (colW x6) n d := by
  refine (val_main_v12_apply (F := Ideal) x0 x1 x2 x3 x6 _).trans ?_
  rw [Ideal.addf_def, v11_at]
  rfl

theorem v13_at (d h : Fin 128) : val_main_v13 (F := Ideal) x4 (ix2 d h) = x4 (ix2 h d) := by
  refine (val_main_v13_apply (F := Ideal) x4 _).trans (congrArg x4 ?_)
  exact funext fun a => Fin.ext (by match a with | ⟨0, _⟩ => rfl | ⟨1, _⟩ => rfl)

theorem v14_at (n : Fin 50000) (h : Fin 128) :
    val_main_v14 (F := Ideal) x0 x1 x2 x3 x4 x6 (ix2 n h)
      = yRef (mat x0) (mat x1) (mat x2) (vec x3) (mat x4) (colW x6) n h := by
  refine (val_main_v14_apply x0 x1 x2 x3 x4 x6 _).trans (Finset.sum_congr rfl fun k _ => ?_)
  have el : lidx_main_v14 (ix2 n h) k = ix2 n k :=
    funext fun a => Fin.ext (by match a with | ⟨0, _⟩ => rfl | ⟨1, _⟩ => rfl)
  have er : ridx_main_v14 (ix2 n h) k = ix2 k h :=
    funext fun a => Fin.ext (by match a with | ⟨0, _⟩ => rfl | ⟨1, _⟩ => rfl)
  exact (congrArg₂ (fun (a : EReal) (b : EReal) => a * b)
    ((congrArg (val_main_v12 (F := Ideal) x0 x1 x2 x3 x6) el).trans (v12_at x0 x1 x2 x3 x6 n k))
    ((congrArg (val_main_v13 (F := Ideal) x4) er).trans (v13_at x4 k h)))

/-! ## The degrees and their inverse square roots -/

theorem v15_at (e : Fin 600000) : val_main_v15 (F := Ideal) (ix1 e) = (1 : EReal) := by
  refine (val_main_v15_apply (F := Ideal) _).trans ((val_main_cst_0_apply (F := Ideal) _).trans ?_)
  rw [Ideal.ofBits_def, Ideal.ofBits_one_f32]

theorem v16_at (n : Fin 50000) : val_main_v16 (F := Ideal) (ix1 n) = (0 : EReal) := by
  refine (val_main_v16_apply (F := Ideal) _).trans ((val_main_cst_1_apply (F := Ideal) _).trans ?_)
  rw [Ideal.ofBits_def, Ideal.ofBits_zero_f32]

theorem v18_at (n : Fin 50000) : val_main_v18 (F := Ideal) x6 (ix1 n) = cnt (colW x6) n := by
  unfold val_main_v18
  rw [scatVec_eq]
  refine (scatterAdd_vec_apply _ _ _ _ n).trans ?_
  simp only [v16_at, v17_at, v15_at]
  rfl

theorem v19_at (n : Fin 50000) : val_main_v19 (F := Ideal) (ix1 n) = (1 : EReal) := by
  refine (val_main_v19_apply (F := Ideal) _).trans ((val_main_cst_2_apply (F := Ideal) _).trans ?_)
  rw [Ideal.ofBits_def, Ideal.ofBits_one_f32]

theorem v20_at (n : Fin 50000) : val_main_v20 (F := Ideal) x6 (ix1 n) = deg (colW x6) n := by
  refine (val_main_v20_apply (F := Ideal) x6 _).trans ?_
  rw [Ideal.addf_def, v18_at, v19_at]
  rfl

theorem v21_at (n : Fin 50000) : val_main_v21 (F := Ideal) (ix1 n) = (0 : EReal) := by
  refine (val_main_v21_apply (F := Ideal) _).trans ((val_main_cst_3_apply (F := Ideal) _).trans ?_)
  rw [Ideal.ofBits_def, Ideal.ofBits_zero_f32]

theorem vcall0_at (n : Fin 50000) : val_main_call0_v1 (F := Ideal) (ix1 n) = (0 : EReal) := by
  refine (val_main_call0_v1_apply (F := Ideal) _).trans ((val_main_call0_v0_apply (F := Ideal) _).trans
    ((val_main_cst_4_apply (F := Ideal) _).trans ?_))
  rw [Ideal.ofBits_def, Ideal.ofBits_zero_f32]

/-- The comparison `d > 0` as a one-bit word. -/
theorem cmp_ogt_zero (d : EReal) : Ideal.cmp .ogt d 0 = if 0 < d then 1#1 else 0#1 := by
  unfold Ideal.cmp
  by_cases hd : (0 : EReal) < d
  · simp [hd]
  · simp [hd]

theorem v24_at (n : Fin 50000) : val_main_v24 (F := Ideal) x6 (ix1 n) = disR (colW x6) n := by
  refine (val_main_v24_apply (F := Ideal) x6 _).trans ?_
  rw [val_main_v22_apply (F := Ideal), val_main_v23_apply (F := Ideal), v20_at, v21_at, vcall0_at,
    Ideal.hostUnary_rsqrt_def]
  refine (congrArg (fun c => Scalar.select c (Ideal.rsqrt (deg (colW x6) n)) (0 : EReal))
    (cmp_ogt_zero (deg (colW x6) n))).trans ?_
  unfold disR
  by_cases hd : (0 : EReal) < deg (colW x6) n
  · rw [if_pos hd, if_pos hd]; exact select_one _ _
  · rw [if_neg hd, if_neg hd]; exact select_zero _ _

/-! ## The gathers of the scalings at the two ends of an edge -/

theorem idx_e0 (e : Fin 600000) : idx_main_v30 (ix2 e (0 : Fin 1)) = ix1 e :=
  funext fun a => Fin.ext (by match a with | ⟨0, _⟩ => rfl)

theorem v29_at (e : Fin 600000) : val_main_v29 (F := Ideal) x6 (ix1 e) = wrapWord (rowW x6 e) := by
  refine (val_main_v29_apply (F := Ideal) x6 _).trans ?_
  rw [val_main_v26_apply (F := Ideal), val_main_v28_apply (F := Ideal), v1_at, val_main_v25_apply (F := Ideal),
    val_main_c_apply (F := Ideal), val_main_v27_apply (F := Ideal), val_main_c_5_apply (F := Ideal)]
  rfl

theorem v30_at (e : Fin 600000) : val_main_v30 (F := Ideal) x6 (ix2 e (0 : Fin 1)) = wrapWord (rowW x6 e) :=
  (val_main_v30_apply (F := Ideal) x6 _).trans ((congrArg (val_main_v29 (F := Ideal) x6) (idx_e0 e)).trans (v29_at x6 e))

theorem v31_at (e : Fin 600000) : val_main_v31 (F := Ideal) x6 (ix1 e) = disR (colW x6) (src (rowW x6 e)) := by
  unfold val_main_v31
  rw [gathVec_eq]
  refine (gather_vec_apply (by decide) _ _ _ e).trans ?_
  rw [v30_at]
  exact v24_at x6 _

theorem v36_at (e : Fin 600000) : val_main_v36 (F := Ideal) x6 (ix1 e) = wrapWord (colW x6 e) := by
  refine (val_main_v36_apply (F := Ideal) x6 _).trans ?_
  rw [val_main_v33_apply (F := Ideal), val_main_v35_apply (F := Ideal), v3_at, val_main_v32_apply (F := Ideal),
    val_main_c_6_apply (F := Ideal), val_main_v34_apply (F := Ideal), val_main_c_7_apply (F := Ideal)]
  rfl

theorem v37_at (e : Fin 600000) : val_main_v37 (F := Ideal) x6 (ix2 e (0 : Fin 1)) = wrapWord (colW x6 e) :=
  (val_main_v37_apply (F := Ideal) x6 _).trans ((congrArg (val_main_v36 (F := Ideal) x6) (idx_e0 e)).trans (v36_at x6 e))

theorem v38_at (e : Fin 600000) : val_main_v38 (F := Ideal) x6 (ix1 e) = disR (colW x6) (src (colW x6 e)) := by
  unfold val_main_v38
  rw [gathVec_eq]
  refine (gather_vec_apply (by decide) _ _ _ e).trans ?_
  rw [v37_at]
  exact v24_at x6 _

theorem v39_at (e : Fin 600000) :
    val_main_v39 (F := Ideal) x6 (ix1 e) = disR (colW x6) (src (rowW x6 e)) * disR (colW x6) (src (colW x6 e)) := by
  refine (val_main_v39_apply (F := Ideal) x6 _).trans ?_
  rw [Ideal.mulf_def, v31_at, v38_at]

theorem v40_at (e : Fin 600000) :
    val_main_v40 (F := Ideal) x6 (ix2 e (0 : Fin 1))
      = disR (colW x6) (src (rowW x6 e)) * disR (colW x6) (src (colW x6 e)) :=
  (val_main_v40_apply (F := Ideal) x6 _).trans ((congrArg (val_main_v39 (F := Ideal) x6) (idx_e0 e)).trans (v39_at x6 e))

/-! ## The messages and their scatter -/

theorem v45_at (e : Fin 600000) : val_main_v45 (F := Ideal) x6 (ix1 e) = wrapWord (rowW x6 e) := by
  refine (val_main_v45_apply (F := Ideal) x6 _).trans ?_
  rw [val_main_v42_apply (F := Ideal), val_main_v44_apply (F := Ideal), v1_at, val_main_v41_apply (F := Ideal),
    val_main_c_8_apply (F := Ideal), val_main_v43_apply (F := Ideal), val_main_c_9_apply (F := Ideal)]
  rfl

theorem v46_at (e : Fin 600000) : val_main_v46 (F := Ideal) x6 (ix2 e (0 : Fin 1)) = wrapWord (rowW x6 e) :=
  (val_main_v46_apply (F := Ideal) x6 _).trans ((congrArg (val_main_v45 (F := Ideal) x6) (idx_e0 e)).trans (v45_at x6 e))

theorem v47_at (e : Fin 600000) (h : Fin 128) :
    val_main_v47 (F := Ideal) x0 x1 x2 x3 x4 x6 (ix2 e h)
      = yRef (mat x0) (mat x1) (mat x2) (vec x3) (mat x4) (colW x6) (src (rowW x6 e)) h := by
  unfold val_main_v47
  rw [gathRows_eq]
  refine (gather_rows_apply (by decide) _ _ _ e h).trans ?_
  rw [v46_at]
  exact v14_at x0 x1 x2 x3 x4 x6 _ h

theorem v48_at (e : Fin 600000) (h : Fin 128) :
    val_main_v48 (F := Ideal) x6 (ix2 e h)
      = disR (colW x6) (src (rowW x6 e)) * disR (colW x6) (src (colW x6 e)) := by
  refine (val_main_v48_apply (F := Ideal) x6 _).trans ((congrArg (val_main_v40 (F := Ideal) x6) ?_).trans (v40_at x6 e))
  exact funext fun a => Fin.ext (by match a with | ⟨0, _⟩ => rfl | ⟨1, _⟩ => rfl)

theorem v49_at (e : Fin 600000) (h : Fin 128) :
    val_main_v49 (F := Ideal) x0 x1 x2 x3 x4 x6 (ix2 e h)
      = msg (mat x0) (mat x1) (mat x2) (vec x3) (mat x4) (rowW x6) (colW x6) e h := by
  refine (val_main_v49_apply (F := Ideal) x0 x1 x2 x3 x4 x6 _).trans ?_
  rw [Ideal.mulf_def, v48_at, v47_at]
  rfl

theorem v50_at (n : Fin 50000) (h : Fin 128) : val_main_v50 (F := Ideal) (ix2 n h) = (0 : EReal) := by
  refine (val_main_v50_apply (F := Ideal) _).trans ((val_main_cst_10_apply (F := Ideal) _).trans ?_)
  rw [Ideal.ofBits_def, Ideal.ofBits_zero_f32]

theorem v52_at (n : Fin 50000) (h : Fin 128) :
    val_main_v52 (F := Ideal) x0 x1 x2 x3 x4 x6 (ix2 n h)
      = segSum (colW x6) (fun e => msg (mat x0) (mat x1) (mat x2) (vec x3) (mat x4) (rowW x6) (colW x6) e h) n := by
  unfold val_main_v52
  rw [scatRows_eq]
  refine (scatterAdd_rows_apply _ _ _ _ n h).trans ?_
  simp only [v50_at, v51_at, v49_at]
  rfl

/-! ## The self loop, the bias and the rectifier -/

theorem v53_at (n : Fin 50000) : val_main_v53 (F := Ideal) x6 (ix1 n) = disR (colW x6) n * disR (colW x6) n := by
  refine (val_main_v53_apply (F := Ideal) x6 _).trans ?_
  rw [Ideal.mulf_def, v24_at]

theorem v54_at (n : Fin 50000) :
    val_main_v54 (F := Ideal) x6 (ix2 n (0 : Fin 1)) = disR (colW x6) n * disR (colW x6) n := by
  refine (val_main_v54_apply (F := Ideal) x6 _).trans ((congrArg (val_main_v53 (F := Ideal) x6) ?_).trans (v53_at x6 n))
  exact funext fun a => Fin.ext (by match a with | ⟨0, _⟩ => rfl)

theorem v55_at (n : Fin 50000) (h : Fin 128) :
    val_main_v55 (F := Ideal) x6 (ix2 n h) = disR (colW x6) n * disR (colW x6) n := by
  refine (val_main_v55_apply (F := Ideal) x6 _).trans ((congrArg (val_main_v54 (F := Ideal) x6) ?_).trans (v54_at x6 n))
  exact funext fun a => Fin.ext (by match a with | ⟨0, _⟩ => rfl | ⟨1, _⟩ => rfl)

theorem v56_at (n : Fin 50000) (h : Fin 128) :
    val_main_v56 (F := Ideal) x0 x1 x2 x3 x4 x6 (ix2 n h)
      = (disR (colW x6) n * disR (colW x6) n) * yRef (mat x0) (mat x1) (mat x2) (vec x3) (mat x4) (colW x6) n h := by
  refine (val_main_v56_apply (F := Ideal) x0 x1 x2 x3 x4 x6 _).trans ?_
  rw [Ideal.mulf_def, v55_at, v14_at]

theorem v57_at (n : Fin 50000) (h : Fin 128) :
    val_main_v57 (F := Ideal) x0 x1 x2 x3 x4 x6 (ix2 n h)
      = segSum (colW x6) (fun e => msg (mat x0) (mat x1) (mat x2) (vec x3) (mat x4) (rowW x6) (colW x6) e h) n
        + (disR (colW x6) n * disR (colW x6) n) * yRef (mat x0) (mat x1) (mat x2) (vec x3) (mat x4) (colW x6) n h := by
  refine (val_main_v57_apply (F := Ideal) x0 x1 x2 x3 x4 x6 _).trans ?_
  rw [Ideal.addf_def, v52_at, v56_at]

theorem v59_at (n : Fin 50000) (h : Fin 128) : val_main_v59 (F := Ideal) x5 (ix2 n h) = x5 (ix1 h) := by
  refine (val_main_v59_apply (F := Ideal) x5 _).trans ((val_main_v58_apply (F := Ideal) x5 _).trans (congrArg x5 ?_))
  exact funext fun a => Fin.ext (by match a with | ⟨0, _⟩ => rfl)

theorem vcall1_at (n : Fin 50000) (h : Fin 128) : val_main_call1_v0 (F := Ideal) (ix2 n h) = (0 : EReal) := by
  refine (val_main_call1_v0_apply (F := Ideal) _).trans ((val_main_call1_cst_apply (F := Ideal) _).trans ?_)
  rw [Ideal.ofBits_def, Ideal.ofBits_zero_f32]

theorem v61_at (n : Fin 50000) (h : Fin 128) :
    val_main_v61 (F := Ideal) x0 x1 x2 x3 x4 x5 x6 (ix2 n h)
      = outRef (mat x0) (mat x1) (mat x2) (vec x3) (mat x4) (vec x5) (rowW x6) (colW x6) n h := by
  refine (val_main_v61_apply (F := Ideal) x0 x1 x2 x3 x4 x5 x6 _).trans ?_
  rw [Ideal.maximumf_def, val_main_v60_apply (F := Ideal), Ideal.addf_def, v57_at, v59_at, vcall1_at]
  rfl

end Stages

end Cert.ReferenceIdeal.RefValue

end
-- ==== Proof.RefValue.lean ====
/-
  The plain program's result is the plain form of the graph convolution.

  Its run is the composition of its host operations (the run and the stages read one operation at a time are in
  Proof/RefRun.lean and Proof/RefRead.lean); the three scatter-adds and the three gathers, whose element read depends on
  the index words, are read by Proof/LibRowIndex.lean.
-/
import proofs.«148007_j53257594471012_2_alg».proof.Proof.RefRead
import proofs.«148007_j53257594471012_2_alg».proof.Proof.Spec
import proofs.«148007_j53257594471012_2_alg».proof.Proof.RefValueStages
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Gcn

/-- The last stage at node `n` and feature `h`: the plain form of the arguments. -/
theorem ref_apply (x0 : FVec Ideal S50000x128 .f32) (x1 : FVec Ideal S600000x16 .f32) (x2 : FVec Ideal S128x16 .f32)
    (x3 : FVec Ideal S128 .f32) (x4 : FVec Ideal S128x128 .f32) (x5 : FVec Ideal S128 .f32) (x6 : IVec S2x600000 32)
    (n : Fin 50000) (h : Fin 128) :
    Cert.ReferenceIdeal.ReadP.val_main_v61 (F := Ideal) x0 x1 x2 x3 x4 x5 x6 (ix2 n h)
      = outRef (mat x0) (mat x1) (mat x2) (vec x3) (mat x4) (vec x5)
          (fun e => x6 (ix2 (0 : Fin 2) e)) (fun e => x6 (ix2 (1 : Fin 2) e)) n h :=
  v61_at x0 x1 x2 x3 x4 x5 x6 n h

end Cert.ReferenceIdeal.RefValue

end
-- ==== Proof.AlgebraReal.lean ====
/-
  The graph convolution over the real numbers: real-valued twins of the stages of the two forms, each stage of the
  extended-real forms as the coercion of its twin when the inputs are coercions of reals, and the identity of the twins.
-/
import proofs.«148007_j53257594471012_2_alg».proof.Proof.Spec

noncomputable section

open scoped BigOperators

namespace Cert.Gcn.RealForm

open Idealize.ShloMosaic Cert.Lib.RowIndex Cert.Gcn

/-! ## An edge landing on a node has that node as the source its own word picks -/

/-- A word that is not negative is left alone by the normalisation. -/
theorem wrapWord_of_nonneg (c : BitVec 32) (hc : 0 ≤ c.toInt) : wrapWord c = c := by
  have hs : c.slt 0#32 = false := by
    simp only [BitVec.slt, BitVec.toInt_zero, decide_eq_false_iff_not, not_lt]
    exact hc
  unfold wrapWord
  simp only [IntOp.cmpi, hs, Scalar.select]
  rfl

/-- An edge landing on node `n` has `n` as the node its `col` word picks. -/
theorem src_col_of_mem (col : Fin 600000 → BitVec 32) (n : Fin 50000) (e : Fin 600000) (he : e ∈ Lands col n) :
    src (col e) = n := by
  have hl : land 50000 (col e) = some n := by
    simpa only [Lands, Finset.mem_filter, Finset.mem_univ, true_and] using he
  unfold src
  rw [wrapWord_of_nonneg (col e) (toInt_nonneg_of_land (col e) n hl)]
  exact pick_of_land (by decide) (col e) n hl

/-! ## Sums of coerced reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A scatter-add of coerced reals is the coercion of the real sum. -/
theorem segSum_coe (col : Fin 600000 → BitVec 32) (f : Fin 600000 → ℝ) (n : Fin 50000) :
    segSum col (fun e => (f e : EReal)) n = ((∑ e ∈ Lands col n, f e : ℝ) : EReal) := by
  unfold segSum
  rw [zero_add, coe_sum]

section Twins

variable (X : Fin 50000 → Fin 128 → ℝ) (A : Fin 600000 → Fin 16 → ℝ) (We : Fin 128 → Fin 16 → ℝ)
  (be : Fin 128 → ℝ) (Wc : Fin 128 → Fin 128 → ℝ) (row col : Fin 600000 → BitVec 32)

/-- The number of edges landing on a node. -/
def cntR (n : Fin 50000) : ℝ := ((Lands col n).card : ℝ)
/-- `deg ^ (-1/2)`, a positive real. -/
def dlt (n : Fin 50000) : ℝ := (Real.sqrt (cntR col n + 1))⁻¹
/-- The attributes of the edges landing on a node, summed. -/
def eaAggR (n : Fin 50000) (k : Fin 16) : ℝ := ∑ e ∈ Lands col n, A e k
/-- The first kernel's result. -/
def yScaledR (n : Fin 50000) (h : Fin 128) : ℝ :=
  dlt col n * ∑ d : Fin 128, ((X n d + ∑ k : Fin 16, eaAggR A col n k * We d k) + cntR col n * be d) * Wc h d
/-- The scaled rows gathered at the sources and summed into the destinations. -/
def scatFR (n : Fin 50000) (h : Fin 128) : ℝ := ∑ e ∈ Lands col n, yScaledR X A We be Wc col (src (row e)) h
/-- One edge's embedding. -/
def embR (e : Fin 600000) (d : Fin 128) : ℝ := (∑ k : Fin 16, A e k * We d k) + be d
/-- The features with the embeddings of the incoming edges added. -/
def xAggR (n : Fin 50000) (d : Fin 128) : ℝ := X n d + ∑ e ∈ Lands col n, embR A We be e d
/-- The convolved features. -/
def yRefR (n : Fin 50000) (h : Fin 128) : ℝ := ∑ d : Fin 128, xAggR X A We be col n d * Wc h d
/-- One edge's message. -/
def msgR (e : Fin 600000) (h : Fin 128) : ℝ :=
  (dlt col (src (row e)) * dlt col (src (col e))) * yRefR X A We be Wc col (src (row e)) h

/-! ## The extended-real stages are the coercions of the twins -/

theorem cnt_coe (n : Fin 50000) : cnt col n = (cntR col n : EReal) := by
  unfold cnt cntR
  have h1 : (fun _ : Fin 600000 => (1 : EReal)) = fun _ => ((1 : ℝ) : EReal) := rfl
  rw [h1, segSum_coe, Finset.sum_const, nsmul_eq_mul, mul_one]

theorem deg_coe (n : Fin 50000) : deg col n = ((cntR col n + 1 : ℝ) : EReal) := by
  unfold deg
  rw [cnt_coe, EReal.coe_add, EReal.coe_one]

theorem cntR_nonneg (n : Fin 50000) : 0 ≤ cntR col n := by
  unfold cntR
  exact Nat.cast_nonneg _

theorem rsqrt_deg (n : Fin 50000) : Ideal.rsqrt (deg col n) = (dlt col n : EReal) := by
  have hp : 0 < cntR col n + 1 := by have := cntR_nonneg col n; linarith
  rw [deg_coe, Ideal.rsqrt_coe, if_neg (not_lt.mpr hp.le), if_neg (ne_of_gt hp)]
  rfl

theorem disF_coe (n : Fin 50000) : disF col n = (dlt col n : EReal) := by
  unfold disF
  exact rsqrt_deg col n

theorem disR_coe (n : Fin 50000) : disR col n = (dlt col n : EReal) := by
  have hp : 0 < cntR col n + 1 := by have := cntR_nonneg col n; linarith
  have hd : (0 : EReal) < deg col n := by
    rw [deg_coe]
    exact_mod_cast hp
  unfold disR
  rw [if_pos hd]
  exact rsqrt_deg col n

theorem eaAgg_coe (n : Fin 50000) (k : Fin 16) :
    eaAgg (fun e k => (A e k : EReal)) col n k = (eaAggR A col n k : EReal) := by
  unfold eaAgg eaAggR
  exact segSum_coe col (fun e => A e k) n

theorem yScaled_coe (n : Fin 50000) (h : Fin 128) :
    yScaled (fun n d => (X n d : EReal)) (fun e k => (A e k : EReal)) (fun d k => (We d k : EReal))
        (fun d => (be d : EReal)) (fun h d => (Wc h d : EReal)) col n h
      = (yScaledR X A We be Wc col n h : EReal) := by
  unfold yScaled nodeFused yScaledR
  simp only [disF_coe, cnt_coe, eaAgg_coe, EReal.coe_mul, EReal.coe_add, coe_sum]

theorem scatF_coe (n : Fin 50000) (h : Fin 128) :
    scatF (fun n d => (X n d : EReal)) (fun e k => (A e k : EReal)) (fun d k => (We d k : EReal))
        (fun d => (be d : EReal)) (fun h d => (Wc h d : EReal)) row col n h
      = (scatFR X A We be Wc row col n h : EReal) := by
  unfold scatF scatFR
  simp only [yScaled_coe]
  exact segSum_coe col _ n

theorem emb_coe (e : Fin 600000) (d : Fin 128) :
    emb (fun e k => (A e k : EReal)) (fun d k => (We d k : EReal)) (fun d => (be d : EReal)) e d
      = (embR A We be e d : EReal) := by
  unfold emb embR
  simp only [EReal.coe_mul, EReal.coe_add, coe_sum]

theorem xAgg_coe (n : Fin 50000) (d : Fin 128) :
    xAgg (fun n d => (X n d : EReal)) (fun e k => (A e k : EReal)) (fun d k => (We d k : EReal))
        (fun d => (be d : EReal)) col n d
      = (xAggR X A We be col n d : EReal) := by
  unfold xAgg xAggR
  simp only [emb_coe]
  rw [segSum_coe, EReal.coe_add]

theorem yRef_coe (n : Fin 50000) (h : Fin 128) :
    yRef (fun n d => (X n d : EReal)) (fun e k => (A e k : EReal)) (fun d k => (We d k : EReal))
        (fun d => (be d : EReal)) (fun h d => (Wc h d : EReal)) col n h
      = (yRefR X A We be Wc col n h : EReal) := by
  unfold yRef yRefR
  simp only [xAgg_coe, EReal.coe_mul, coe_sum]

theorem msg_coe (e : Fin 600000) (h : Fin 128) :
    msg (fun n d => (X n d : EReal)) (fun e k => (A e k : EReal)) (fun d k => (We d k : EReal))
        (fun d => (be d : EReal)) (fun h d => (Wc h d : EReal)) row col e h
      = (msgR X A We be Wc row col e h : EReal) := by
  unfold msg msgR
  simp only [disR_coe, yRef_coe, EReal.coe_mul]

/-! ## The identity over the reals -/

/-- The embedding is linear: the sum of the embeddings of the edges landing on a node is the embedding of the summed
    attributes plus one bias per edge. -/
theorem xAggR_eq (n : Fin 50000) (d : Fin 128) :
    xAggR X A We be col n d = (X n d + ∑ k : Fin 16, eaAggR A col n k * We d k) + cntR col n * be d := by
  unfold xAggR embR eaAggR cntR
  rw [Finset.sum_add_distrib, Finset.sum_comm, Finset.sum_const, nsmul_eq_mul]
  simp only [Finset.sum_mul]
  ring

/-- The first kernel's result is the convolved features scaled by `deg ^ (-1/2)`. -/
theorem yScaledR_eq (n : Fin 50000) (h : Fin 128) :
    yScaledR X A We be Wc col n h = dlt col n * yRefR X A We be Wc col n h := by
  unfold yScaledR yRefR
  simp only [xAggR_eq]

/-- The two forms before the last bias: the scaling of the destination node comes out of the sum of the messages. -/
theorem combine_real (n : Fin 50000) (h : Fin 128) :
    dlt col n * (scatFR X A We be Wc row col n h + yScaledR X A We be Wc col n h)
      = (∑ e ∈ Lands col n, msgR X A We be Wc row col e h)
          + (dlt col n * dlt col n) * yRefR X A We be Wc col n h := by
  have hm : ∀ e ∈ Lands col n,
      msgR X A We be Wc row col e h = dlt col n * yScaledR X A We be Wc col (src (row e)) h := by
    intro e he
    unfold msgR
    rw [src_col_of_mem col n e he, yScaledR_eq]
    ring
  rw [Finset.sum_congr rfl hm, ← Finset.mul_sum, yScaledR_eq X A We be Wc col n h]
  unfold scatFR
  ring

/-! ## The two extended-real forms on coerced reals -/

/-- On inputs that are coercions of reals the tiled form is the plain form (the last bias may be anything). -/
theorem outFused_eq_outRef_coe (bc : Fin 128 → EReal) (n : Fin 50000) (h : Fin 128) :
    outFused (fun n d => (X n d : EReal)) (fun e k => (A e k : EReal)) (fun d k => (We d k : EReal))
        (fun d => (be d : EReal)) (fun h d => (Wc h d : EReal)) bc row col n h
      = outRef (fun n d => (X n d : EReal)) (fun e k => (A e k : EReal)) (fun d k => (We d k : EReal))
        (fun d => (be d : EReal)) (fun h d => (Wc h d : EReal)) bc row col n h := by
  unfold outFused finalCombine outRef
  simp only [msg_coe]
  rw [segSum_coe, disF_coe, scatF_coe, yScaled_coe, disR_coe, yRef_coe]
  refine congrArg (fun t => max (t + bc h) 0) ?_
  rw [← EReal.coe_add, ← EReal.coe_mul, ← EReal.coe_mul, ← EReal.coe_mul, ← EReal.coe_add]
  exact congrArg (fun r : ℝ => (r : EReal)) (combine_real X A We be Wc row col n h)

end Twins

end Cert.Gcn.RealForm

end
-- ==== Proof.Algebra.lean ====
/-
  The two forms of the graph convolution agree on real inputs.
-/
import proofs.«148007_j53257594471012_2_alg».proof.Proof.AlgebraReal

noncomputable section

open scoped BigOperators

namespace Cert.Gcn

open Idealize.ShloMosaic Cert.Lib.RowIndex

/-- An extended real that is a real number. -/
def Fin' (x : EReal) : Prop := x ≠ ⊥ ∧ x ≠ ⊤

/-- A family of extended reals that are all real numbers is the coercion of a family of reals. -/
theorem exists_real_of_Fin' {ι : Type} (f : ι → EReal) (hf : ∀ i, Fin' (f i)) :
    ∃ g : ι → ℝ, f = fun i => (g i : EReal) :=
  ⟨fun i => (f i).toReal, funext fun i => (EReal.coe_toReal (hf i).2 (hf i).1).symm⟩

/-- The same for a family with two indices. -/
theorem exists_real2_of_Fin' {ι κ : Type} (f : ι → κ → EReal) (hf : ∀ i j, Fin' (f i j)) :
    ∃ g : ι → κ → ℝ, f = fun i j => (g i j : EReal) :=
  ⟨fun i j => (f i j).toReal, funext fun i => funext fun j => (EReal.coe_toReal (hf i j).2 (hf i j).1).symm⟩

/-- When the features, the edge attributes and the three weight arrays hold real numbers, the tiled form is the plain
    form, at every node and feature. (`b_conv` is only added at the end: it may be anything.) -/
theorem outFused_eq_outRef (X : Fin 50000 → Fin 128 → EReal) (A : Fin 600000 → Fin 16 → EReal) (We : Fin 128 → Fin 16 → EReal)
    (be : Fin 128 → EReal) (Wc : Fin 128 → Fin 128 → EReal) (bc : Fin 128 → EReal) (row col : Fin 600000 → BitVec 32)
    (hX : ∀ n d, Fin' (X n d)) (hA : ∀ e k, Fin' (A e k)) (hWe : ∀ d k, Fin' (We d k)) (hbe : ∀ d, Fin' (be d))
    (hWc : ∀ h d, Fin' (Wc h d)) (n : Fin 50000) (h : Fin 128) :
    outFused X A We be Wc bc row col n h = outRef X A We be Wc bc row col n h := by
  obtain ⟨Xr, rfl⟩ := exists_real2_of_Fin' X hX
  obtain ⟨Ar, rfl⟩ := exists_real2_of_Fin' A hA
  obtain ⟨Wer, rfl⟩ := exists_real2_of_Fin' We hWe
  obtain ⟨ber, rfl⟩ := exists_real_of_Fin' be hbe
  obtain ⟨Wcr, rfl⟩ := exists_real2_of_Fin' Wc hWc
  exact RealForm.outFused_eq_outRef_coe Xr Ar Wer ber Wcr row col bc n h

end Cert.Gcn

end
-- ==== Proof.Finite.lean ====
/-
  The precondition says every float input holds real numbers.

  The printed predicate is a conjunction, over the six float arguments, of `all (|x| < +inf)`: a reduction by `and`, over every
  axis, of the one-bit comparison of each element's absolute value with the infinity word. If it is all ones then each
  reduction is one, so each comparison is one at every index, and an extended real whose absolute value is below the top
  element is neither infinity.
-/
import proofs.«148007_j53257594471012_2_alg».proof.Pre_finite_inputs
import proofs.«148007_j53257594471012_2_alg».proof.Proof.Algebra
import Idealize.ShloMosaic.Lib.ReduceAll
import Idealize.ShloMosaic.PureOps.Ideal.Laws

noncomputable section

namespace Cert.Finite

open Idealize.ShloMosaic Cert.Pre_finite_inputs Cert.Gcn

/-- The scalar shape has one index. -/
instance : Subsingleton S_.Idx := ⟨fun a b => funext fun d => d.elim0⟩

/-- One element: `|x| < +inf` holds only of a real number. -/
theorem real_of_abs_lt_inf (x : EReal)
    (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨fun hb => ?_, fun ht => ?_⟩
  · subst hb; simp at hlt
  · subst ht; simp at hlt

variable [Cert.Pre_finite_inputs.Facts]
open Cert.Pre_finite_inputs.Facts

/-- When the printed predicate is all ones, every element of every float argument is a real number. -/
theorem of_pre (a0 : FVec Ideal S50000x128 .f32) (a1 : FVec Ideal S600000x16 .f32) (a2 : FVec Ideal S128x16 .f32)
    (a3 : FVec Ideal S128 .f32) (a4 : FVec Ideal S128x128 .f32) (a5 : FVec Ideal S128 .f32) (a6 : IVec S2x600000 32)
    (h : Cert.Pre_finite_inputs.fn (F := Ideal) a0 a1 a2 a3 a4 a5 a6 = fun _ => 1#1) :
    (∀ i, Fin' (a0 i)) ∧ (∀ i, Fin' (a1 i)) ∧ (∀ i, Fin' (a2 i)) ∧ (∀ i, Fin' (a3 i)) ∧ (∀ i, Fin' (a4 i)) ∧ (∀ i, Fin' (a5 i)) := by
  have h0 := congrFun h ValueIdx.ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i),
    fun i => real_of_abs_lt_inf _ (Host.reduce_andi_all _ _ _ _ _ e5 i)⟩

end Cert.Finite

end
-- ==== Proof.lean ====
/-
  The certificate of the graph-convolution kernel against its plain jnp reference.

  The tiled program computes relu (dis * (S + Y') + b_conv), where Y' = dis * ((x + ea W_edge^T + deg b_edge) W_conv^T) comes
  out of its first kernel (ea and deg the edge attributes and the edge count summed into the destination nodes by a
  scatter-add on the host, dis = (deg + 1)^(-1/2)), S is the scatter-add, into the destination nodes, of the rows of Y'
  gathered at the edges' source nodes, and the second kernel does the final combination. The plain program embeds every
  edge first, sums the embeddings into the nodes, multiplies by W_conv^T, and normalises every message by
  dis (source) * dis (destination).

  * The three frames: the two tiled programs' by their generated frame certificates; the plain program's by its run
    (Proof/RefRun.lean).
  * The idealization rewrote nothing, so the preservation claim is trivial.
  * The algebraic claim: the tiled program's run names its result at the last segment boundary (Proof/KernelRun.lean), and
    that array is the tiled form `outFused` of the arguments (Proof/KernelValue.lean, over the two regions' whole-array
    functions, Proof/Region0.lean and Proof/Region1.lean); the plain program's result is the plain form `outRef`
    (Proof/RefValue.lean); the two forms agree when the float inputs are real numbers (Proof/Algebra.lean), which is what
    the precondition says (Proof/Finite.lean). Linearity of the embedding, and the factor dis (destination) taken out of a
    sum, are distributive laws, which fail at infinities: this is where the precondition is used.
-/
import proofs.«148007_j53257594471012_2_alg».proof.Defs
import proofs.«148007_j53257594471012_2_alg».proof.Proof.Gen.Kernel
import proofs.«148007_j53257594471012_2_alg».proof.Proof.Gen.Kernel.Skeleton
import proofs.«148007_j53257594471012_2_alg».proof.Proof.Gen.Kernel.Launch
import proofs.«148007_j53257594471012_2_alg».proof.Proof.Gen.Kernel.Points
import proofs.«148007_j53257594471012_2_alg».proof.Proof.Gen.Kernel.Frame
import proofs.«148007_j53257594471012_2_alg».proof.Proof.Gen.KernelIdeal
import proofs.«148007_j53257594471012_2_alg».proof.Proof.Gen.KernelIdeal.Skeleton
import proofs.«148007_j53257594471012_2_alg».proof.Proof.Gen.KernelIdeal.Launch
import proofs.«148007_j53257594471012_2_alg».proof.Proof.Gen.KernelIdeal.Points
import proofs.«148007_j53257594471012_2_alg».proof.Proof.Gen.KernelIdeal.Frame
import proofs.«148007_j53257594471012_2_alg».proof.Proof.Gen.ReferenceIdeal
import proofs.«148007_j53257594471012_2_alg».proof.Proof.Gen.Pre_finite_inputs
import proofs.«148007_j53257594471012_2_alg».proof.Proof.RefRun
import proofs.«148007_j53257594471012_2_alg».proof.Proof.RefRead
import proofs.«148007_j53257594471012_2_alg».proof.Proof.KernelRun
import proofs.«148007_j53257594471012_2_alg».proof.Proof.KernelValue
import proofs.«148007_j53257594471012_2_alg».proof.Proof.RefValue
import proofs.«148007_j53257594471012_2_alg».proof.Proof.Algebra
import proofs.«148007_j53257594471012_2_alg».proof.Proof.Finite
import Idealize.ShloMosaic.Adequacy
import Idealize.ShloMosaic.Init

noncomputable section

namespace Cert.Proof

open Idealize.ShloMosaic Idealize.SL.Sem Idealize.ShloMosaic.ValueIdx

section Claims

variable [hKernel : Cert.Kernel.Facts] [hKernelIdeal : Cert.KernelIdeal.Facts] [hReferenceIdeal : Cert.ReferenceIdeal.Facts]
  [hPre : Cert.Pre_finite_inputs.Facts]

theorem frame_p : Cert.frame_Kernel := fun m ρ _ => Cert.Kernel.Gen.frame m ρ

theorem frame_pi : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end, the tiled one at `outFused` of its arguments and the plain one at `outRef` of arguments that agree:
    one function on real inputs. -/
theorem algebraic : Cert.algebraic_KernelIdeal_ReferenceIdeal := by
  intro m ρ m' ρ' hpre hagree
  refine ⟨fun c => Cert.KernelIdeal.Gen.W4 m ρ c (Proc.devRef .tc Cert.KernelIdeal.main_v31),
    Cert.KernelIdeal.RunValue.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, _⟩ := Cert.Finite.of_pre _ _ _ _ _ _ _ (hpre c)
  rw [Cert.ReferenceIdeal.ReadP.val_main_v61_eq, (hagree c).1, (hagree c).2.1, (hagree c).2.2.1, (hagree c).2.2.2.1,
    (hagree c).2.2.2.2.1, (hagree c).2.2.2.2.2.1, (hagree c).2.2.2.2.2.2]
  funext i
  obtain ⟨n, h, rfl⟩ : ∃ (n : Fin 50000) (h : Fin 128), i = ix2 n h := ⟨i 0, i 1, eq_ix2 i⟩
  refine (Cert.ReferenceIdeal.RefValue.ref_apply _ _ _ _ _ _ _ n h).trans ?_
  refine (Cert.Gcn.outFused_eq_outRef _ _ _ _ _ _ _ _ (fun n d => h0 (ix2 n d)) (fun e k => h1 (ix2 e k))
    (fun d k => h2 (ix2 d k)) (fun d => h3 (ix1 d)) (fun h d => h4 (ix2 h d)) n h).symm.trans ?_
  exact (Cert.KernelIdeal.RunValue.W4_result m ρ c n h).symm

end Claims

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
